-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1000000x32 : S_.BroadcastsInDim S1000000x32 (![] : Fin 0 → Fin S1000000x32.rank)
  reducesTo_S1000000x32_S_d0_1 : S1000000x32.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x9 : S_.BroadcastsInDim S32x9 (![] : Fin 0 → Fin S32x9.rank)
  reducesTo_S32x9_S_d0_1 : S32x9.ReducesTo [0, 1] S_
  bcast_S_S9 : S_.BroadcastsInDim S9 (![] : Fin 0 → Fin S9.rank)
  reducesTo_S9_S_d0 : S9.ReducesTo [0] S_

variable [Facts]

def fn_part8 {F : FTy → Type} [FloatOps F] (main_arg29 : FVec F S9 .f32) (main_v133 : IVec S_ 1) (main_v136 : IVec S32x9 1) : IVec S_ 1 :=
  let main_c_53 : IVec S_ 1 := constantI S_ 1 1#1
  let main_v137 : IVec S_ 1 := (fun x v => Host.reduce IntOp.andi x v reducesTo_S32x9_S_d0_1 h_S_) main_v136 main_c_53
  let main_v138 : IVec S_ 1 := andi main_v133 main_v137
  let main_v139 : FVec F S9 .f32 := Host.absf main_arg29
  let main_cst_54 : FVec F S_ .f32 := constant S_ .f32 0x7F800000#32
  let main_v140 : FVec F S9 .f32 := broadcastInDim S9 ![] bcast_S_S9 main_cst_54
  let main_v141 : IVec S9 1 := cmpf .olt main_v139 main_v140
  let main_c_55 : IVec S_ 1 := constantI S_ 1 1#1
  let main_v142 : IVec S_ 1 := (fun x v => Host.reduce IntOp.andi x v reducesTo_S9_S_d0 h_S_) main_v141 main_c_55
  let main_v143 : IVec S_ 1 := andi main_v138 main_v142
  main_v143

def fn_part7 {F : FTy → Type} [FloatOps F] (main_arg26 : FVec F S32 .f32) (main_arg27 : FVec F S32 .f32) (main_arg28 : FVec F S32x9 .f32) (main_arg29 : FVec F S9 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32 .f32 := Host.absf main_arg26
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S32 .f32 := Host.absf main_arg27
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  let main_v134 : FVec F S32x9 .f32 := Host.absf main_arg28
  let main_cst_52 : FVec F S_ .f32 := constant S_ .f32 0x7F800000#32
  let main_v135 : FVec F S32x9 .f32 := broadcastInDim S32x9 ![] bcast_S_S32x9 main_cst_52
  let main_v136 : IVec S32x9 1 := cmpf .olt main_v134 main_v135
  fn_part8 (F := F) main_arg29 main_v133 main_v136

def fn_part6 {F : FTy → Type} [FloatOps F] (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S8x32 .f32 := Host.absf main_arg22
  let main_cst_40 : FVec F S_ .f32 := constant S_ .f32 0x7F800000#32
  let main_v105 : FVec F S8x32 .f32 := broadcastInDim S8x32 ![] bcast_S_S8x32 main_cst_40
  let main_v106 : IVec S8x32 1 := cmpf .olt main_v104 main_v105
  let main_c_41 : IVec S_ 1 := constantI S_ 1 1#1
  let main_v107 : IVec S_ 1 := (fun x v => Host.reduce IntOp.andi x v reducesTo_S8x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg24
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg25
  fn_part7 (F := F) main_arg26 main_arg27 main_arg28 main_arg29 main_v118 main_v119

def fn_part5 {F : FTy → Type} [FloatOps F] (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg19
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg22 main_arg23 main_arg24 main_arg25 main_arg26 main_arg27 main_arg28 main_arg29 main_v98 main_v101 main_c_39

def fn_part4 {F : FTy → Type} [FloatOps F] (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S8x32 .f32 := Host.absf main_arg17
  let main_cst_30 : FVec F S_ .f32 := constant S_ .f32 0x7F800000#32
  let main_v80 : FVec F S8x32 .f32 := broadcastInDim S8x32 ![] bcast_S_S8x32 main_cst_30
  let main_v81 : IVec S8x32 1 := cmpf .olt main_v79 main_v80
  let main_c_31 : IVec S_ 1 := constantI S_ 1 1#1
  let main_v82 : IVec S_ 1 := (fun x v => Host.reduce IntOp.andi x v reducesTo_S8x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_v83 main_v84 main_cst_32

def fn_part3 {F : FTy → Type} [FloatOps F] (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S8x32 .f32 := Host.absf main_arg11
  let main_cst_18 : FVec F S_ .f32 := constant S_ .f32 0x7F800000#32
  let main_v50 : FVec F S8x32 .f32 := broadcastInDim S8x32 ![] bcast_S_S8x32 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg5 : FVec F S8x32 .f32) (main_arg6 : FVec F S32 .f32) (main_arg7 : FVec F S32x32 .f32) (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S8x32 .f32 := Host.absf main_arg5
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S1000000x8 .f32) (main_arg1 : IVec S2x4000000 32) (main_arg2 : FVec F S4000000 .f32) (main_arg3 : FVec F S1000000x32 .f32) (main_arg4 : FVec F S1000000x32 .f32) (main_arg5 : FVec F S8x32 .f32) (main_arg6 : FVec F S32 .f32) (main_arg7 : FVec F S32x32 .f32) (main_arg8 : FVec F S32 .f32) (main_arg9 : FVec F S32 .f32) (main_arg10 : FVec F S32 .f32) (main_arg11 : FVec F S8x32 .f32) (main_arg12 : FVec F S32 .f32) (main_arg13 : FVec F S32x32 .f32) (main_arg14 : FVec F S32 .f32) (main_arg15 : FVec F S32 .f32) (main_arg16 : FVec F S32 .f32) (main_arg17 : FVec F S8x32 .f32) (main_arg18 : FVec F S32 .f32) (main_arg19 : FVec F S32x32 .f32) (main_arg20 : FVec F S32 .f32) (main_arg21 : FVec F S32 .f32) (main_arg22 : FVec F S8x32 .f32) (main_arg23 : FVec F S32 .f32) (main_arg24 : FVec F S32x32 .f32) (main_arg25 : FVec F S32 .f32) (main_arg26 : FVec F S32 .f32) (main_arg27 : FVec F S32 .f32) (main_arg28 : FVec F S32x9 .f32) (main_arg29 : FVec F S9 .f32) : IVec S_ 1 :=
  let main_v0 : FVec F S1000000x8 .f32 := Host.absf main_arg0
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S1000000x32 .f32 := Host.absf main_arg3
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x32 .f32 := Host.absf main_arg4
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S8x128 : Shape := ⟨2, ![8, 128]⟩
abbrev S32x128 : Shape := ⟨2, ![32, 128]⟩
abbrev S128 : Shape := ⟨1, ![128]⟩
abbrev S1000000x9 : Shape := ⟨2, ![1000000, 9]⟩
abbrev S4000x8 : Shape := ⟨2, ![4000, 8]⟩
abbrev S4000x32 : Shape := ⟨2, ![4000, 32]⟩
abbrev S4000x9 : Shape := ⟨2, ![4000, 9]⟩
abbrev S4000x128 : Shape := ⟨2, ![4000, 128]⟩
abbrev S1x128 : Shape := ⟨2, ![1, 128]⟩
abbrev S1x32 : Shape := ⟨2, ![1, 32]⟩
abbrev S1x9 : Shape := ⟨2, ![1, 9]⟩

abbrev nBuf : Space → Nat
  | .hbm => 47
  | .vmem => 20
  | .smem => 0
  | _ => 0

abbrev bufTy : (tb : Table) → Fin (tcTables nBuf tb) → BufTy
  | .hbm, ⟨0, _⟩ => ⟨S1000000x8, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S8x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S8x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32, .f32⟩
  | .hbm, ⟨22, _⟩ => ⟨S8x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x9, .f32⟩
  | .hbm, ⟨29, _⟩ => ⟨S9, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S8x128, .f32⟩
  | .hbm, ⟨39, _⟩ => ⟨S8x128, .bf16⟩
  | .hbm, ⟨40, _⟩ => ⟨S32x128, .f32⟩
  | .hbm, ⟨41, _⟩ => ⟨S32x128, .bf16⟩
  | .hbm, ⟨42, _⟩ => ⟨S128, .f32⟩
  | .hbm, ⟨43, _⟩ => ⟨S32x9, .bf16⟩
  | .hbm, ⟨44, _⟩ => ⟨S1000000x9, .f32⟩
  | .hbm, ⟨45, _⟩ => ⟨S1000000x32, .f32⟩
  | .hbm, ⟨46, _⟩ => ⟨S1000000x32, .f32⟩
  | .local _ .vmem, ⟨0, _⟩ => ⟨S4000x8, .f32⟩
  | .local _ .vmem, ⟨1, _⟩ => ⟨S4000x8, .f32⟩
  | .local _ .vmem, ⟨2, _⟩ => ⟨S4000x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S8x128, .bf16⟩
  | .local _ .vmem, ⟨7, _⟩ => ⟨S32x128, .bf16⟩
  | .local _ .vmem, ⟨8, _⟩ => ⟨S128, .f32⟩
  | .local _ .vmem, ⟨9, _⟩ => ⟨S32, .f32⟩
  | .local _ .vmem, ⟨10, _⟩ => ⟨S32, .f32⟩
  | .local _ .vmem, ⟨11, _⟩ => ⟨S32, .f32⟩
  | .local _ .vmem, ⟨12, _⟩ => ⟨S32x9, .bf16⟩
  | .local _ .vmem, ⟨13, _⟩ => ⟨S9, .f32⟩
  | .local _ .vmem, ⟨14, _⟩ => ⟨S4000x9, .f32⟩
  | .local _ .vmem, ⟨15, _⟩ => ⟨S4000x9, .f32⟩
  | .local _ .vmem, ⟨16, _⟩ => ⟨S4000x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | _, _ => ⟨S1000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14_0 : Ref sig .tc := ⟨.hbm, 44, rfl⟩
abbrev main_v14_1 : Ref sig .tc := ⟨.hbm, 45, rfl⟩
abbrev main_v14_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x9 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x9 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S8x32_S8x32_S8x32_S8x32_S8x128_d1 : Shape.Concatenates [S8x32, S8x32, S8x32, S8x32] S8x128 1
  bitsLt_bf16_f32 : FTy.bits .bf16 < FTy.bits .f32
  concatenates_S32x32_S32x32_S32x32_S32x32_S32x128_d1 : Shape.Concatenates [S32x32, S32x32, S32x32, S32x32] S32x128 1
  concatenates_S32_S32_S32_S32_S128_d0 : Shape.Concatenates [S32, S32, S32, S32] S128 0
  inb_S4000x8_S4000x8_0_0 : ∀ a, (![0, 0] : Fin 2 → Nat) a + S4000x8.size a ≤ S4000x8.size a
  h_S4000x8 : 0 < S4000x8.numel
  inb_S4000x32_S4000x32_0_0 : ∀ a, (![0, 0] : Fin 2 → Nat) a + S4000x32.size a ≤ S4000x32.size a
  h_S4000x32 : 0 < S4000x32.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S128 : S128.ShapeCasts S128
  inb_S32_S32_0 : ∀ a, (![0] : Fin 1 → Nat) a + S32.size a ≤ S32.size a
  h_S32 : 0 < S32.numel
  inb_S32x9_S32x9_0_0 : ∀ a, (![0, 0] : Fin 2 → Nat) a + S32x9.size a ≤ S32x9.size a
  h_S32x9 : 0 < S32x9.numel
  shapeCasts_S32x9_S32x9 : S32x9.ShapeCasts S32x9
  inb_S9_S9_0 : ∀ a, (![0] : Fin 1 → Nat) a + S9.size a ≤ S9.size a
  h_S9 : 0 < S9.numel
  shapeCasts_S128_S1x128 : S128.ShapeCasts S1x128
  broadcasts_S1x128_S4000x128 : S1x128.Broadcasts S4000x128
  slices_S4000x128_o0_0_S4000x32 : S4000x128.Slices ![0, 0] S4000x32
  slices_S4000x128_o0_32_S4000x32 : S4000x128.Slices ![0, 32] S4000x32
  slices_S4000x128_o0_64_S4000x32 : S4000x128.Slices ![0, 64] S4000x32
  slices_S4000x128_o0_96_S4000x32 : S4000x128.Slices ![0, 96] S4000x32
  shapeCasts_S32_S1x32 : S32.ShapeCasts S1x32
  broadcasts_S1x32_S4000x32 : S1x32.Broadcasts S4000x32
  shapeCasts_S9_S1x9 : S9.ShapeCasts S1x9
  broadcasts_S1x9_S4000x9 : S1x9.Broadcasts S4000x9
  inb_S4000x9_S4000x9_0_0 : ∀ a, (![0, 0] : Fin 2 → Nat) a + S4000x9.size a ≤ S4000x9.size a
  h_S4000x9 : 0 < S4000x9.numel
  dot_S4000x8_S8x128_S4000x128_1_0_0_1_n_n_wf : DotDims.WF S4000x8 S8x128 S4000x128 [1] [0] [0] [1] [] []
  dot_S4000x32_S32x128_S4000x128_1_0_0_1_n_n_wf : DotDims.WF S4000x32 S32x128 S4000x128 [1] [0] [0] [1] [] []
  dot_S4000x32_S32x9_S4000x9_1_0_0_1_n_n_wf : DotDims.WF S4000x32 S32x9 S4000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S1000000x8.size a
  hwx0_0 : ∀ i : grid0.Coords, EltTy.bits .f32 = 32 ∨ (Rect.block (s := S1000000x8) S4000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1000000x32.size a
  hwx0_1 : ∀ i : grid0.Coords, EltTy.bits .f32 = 32 ∨ (Rect.block (s := S1000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1000000x32.size a
  hwx0_2 : ∀ i : grid0.Coords, EltTy.bits .f32 = 32 ∨ (Rect.block (s := S1000000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .bf16 = 32 ∨ (Rect.block (s := S8x128) S8x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x9.size a ≤ S32x9.size a
  hwx0_9 : ∀ i : grid0.Coords, EltTy.bits .bf16 = 32 ∨ (Rect.block (s := S32x9) S32x9.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S9.size a ≤ S9.size a
  hwx0_10 : ∀ i : grid0.Coords, EltTy.bits .f32 = 32 ∨ (Rect.block (s := S9) S9.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x9.size a ≤ S1000000x9.size a
  hwx0_11 : ∀ i : grid0.Coords, EltTy.bits .f32 = 32 ∨ (Rect.block (s := S1000000x9) S4000x9.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x32.size a ≤ S1000000x32.size a
  hwx0_12 : ∀ i : grid0.Coords, EltTy.bits .f32 = 32 ∨ (Rect.block (s := S1000000x32) S4000x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x32.size a ≤ S1000000x32.size a
  hwx0_13 : ∀ i : grid0.Coords, EltTy.bits .f32 = 32 ∨ (Rect.block (s := S1000000x32) S4000x32.size (cc0_transform_13 i) (hinb0_13 i)).WholeWords (EltTy.packing .f32)

variable [Facts₀]

def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x32_S32x9_S4000x9_1_0_0_1_n_n : DotDims S4000x32 S32x9 S4000x9 where
  lhsContracting := [1]
  rhsContracting := [0]
  lhsNonContracting := [0]
  rhsNonContracting := [1]
  lhsBatch := []
  rhsBatch := []
  wf := dot_S4000x32_S32x9_S4000x9_1_0_0_1_n_n_wf

abbrev win0_0 : Pipeline.Window sig grid0 :=
  Pipeline.Window.ofSpec (Memref.whole main_arg0) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg27) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S32x9.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg29) S9.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14_0) S4000x9.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v14_1) S4000x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_2) S4000x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x8 : Shape := ⟨2, ![1000000, 8]⟩
abbrev S2x4000000 : Shape := ⟨2, ![2, 4000000]⟩
abbrev S4000000 : Shape := ⟨1, ![4000000]⟩
abbrev S1000000x32 : Shape := ⟨2, ![1000000, 32]⟩
abbrev S8x32 : Shape := ⟨2, ![8, 32]⟩
abbrev S32 : Shape := ⟨1, ![32]⟩
abbrev S32x32 : Shape := ⟨2, ![32, 32]⟩
abbrev S32x9 : Shape := ⟨2, ![32, 9]⟩
abbrev S9 : Shape := ⟨1, ![9]⟩
abbrev S1x32 : Shape := ⟨2, ![1, 32]⟩
abbrev S_ : Shape := ⟨0, ![]⟩
abbrev S1000000x9 : Shape := ⟨2, ![1000000, 9]⟩
abbrev S1x9 : Shape := ⟨2, ![1, 9]⟩

abbrev nBuf : Space → Nat
  | .hbm => 127
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S8x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S8x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32, .f32⟩
  | .hbm, ⟨22, _⟩ => ⟨S8x32, .f32⟩
  | .hbm, ⟨23, _⟩ => ⟨S32, .f32⟩
  | .hbm, ⟨24, _⟩ => ⟨S32x32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x9, .f32⟩
  | .hbm, ⟨29, _⟩ => ⟨S9, .f32⟩
  | .hbm, ⟨30, _⟩ => ⟨S1000000x32, .f32⟩
  | .hbm, ⟨31, _⟩ => ⟨S1x32, .f32⟩
  | .hbm, ⟨32, _⟩ => ⟨S1000000x32, .f32⟩
  | .hbm, ⟨33, _⟩ => ⟨S1000000x32, .f32⟩
  | .hbm, ⟨34, _⟩ => ⟨S1000000x32, .f32⟩
  | .hbm, ⟨35, _⟩ => ⟨S1000000x32, .f32⟩
  | .hbm, ⟨36, _⟩ => ⟨S1x32, .f32⟩
  | .hbm, ⟨37, _⟩ => ⟨S1000000x32, .f32⟩
  | .hbm, ⟨38, _⟩ => ⟨S1000000x32, .f32⟩
  | .hbm, ⟨39, _⟩ => ⟨S1x32, .f32⟩
  | .hbm, ⟨40, _⟩ => ⟨S1000000x32, .f32⟩
  | .hbm, ⟨41, _⟩ => ⟨S1000000x32, .f32⟩
  | .hbm, ⟨42, _⟩ => ⟨S1000000x32, .f32⟩
  | .hbm, ⟨43, _⟩ => ⟨S1x32, .f32⟩
  | .hbm, ⟨44, _⟩ => ⟨S1000000x32, .f32⟩
  | .hbm, ⟨45, _⟩ => ⟨S1000000x32, .f32⟩
  | .hbm, ⟨46, _⟩ => ⟨S1000000x32, .f32⟩
  | .hbm, ⟨47, _⟩ => ⟨S1000000x32, .f32⟩
  | .hbm, ⟨48, _⟩ => ⟨S_, .f32⟩
  | .hbm, ⟨49, _⟩ => ⟨S1000000x32, .f32⟩
  | .hbm, ⟨50, _⟩ => ⟨S1000000x32, .f32⟩
  | .hbm, ⟨51, _⟩ => ⟨S_, .f32⟩
  | .hbm, ⟨52, _⟩ => ⟨S1000000x32, .f32⟩
  | .hbm, ⟨53, _⟩ => ⟨S1000000x32, .f32⟩
  | .hbm, ⟨54, _⟩ => ⟨S1000000x32, .f32⟩
  | .hbm, ⟨55, _⟩ => ⟨S1x32, .f32⟩
  | .hbm, ⟨56, _⟩ => ⟨S1000000x32, .f32⟩
  | .hbm, ⟨57, _⟩ => ⟨S1000000x32, .f32⟩
  | .hbm, ⟨58, _⟩ => ⟨S1000000x32, .f32⟩
  | .hbm, ⟨59, _⟩ => ⟨S1000000x32, .f32⟩
  | .hbm, ⟨60, _⟩ => ⟨S1x32, .f32⟩
  | .hbm, ⟨61, _⟩ => ⟨S1000000x32, .f32⟩
  | .hbm, ⟨62, _⟩ => ⟨S1000000x32, .f32⟩
  | .hbm, ⟨63, _⟩ => ⟨S1x32, .f32⟩
  | .hbm, ⟨64, _⟩ => ⟨S1000000x32, .f32⟩
  | .hbm, ⟨65, _⟩ => ⟨S1000000x32, .f32⟩
  | .hbm, ⟨66, _⟩ => ⟨S1000000x32, .f32⟩
  | .hbm, ⟨67, _⟩ => ⟨S1x32, .f32⟩
  | .hbm, ⟨68, _⟩ => ⟨S1000000x32, .f32⟩
  | .hbm, ⟨69, _⟩ => ⟨S1000000x32, .f32⟩
  | .hbm, ⟨70, _⟩ => ⟨S1000000x32, .f32⟩
  | .hbm, ⟨71, _⟩ => ⟨S1000000x32, .f32⟩
  | .hbm, ⟨72, _⟩ => ⟨S_, .f32⟩
  | .hbm, ⟨73, _⟩ => ⟨S1000000x32, .f32⟩
  | .hbm, ⟨74, _⟩ => ⟨S1000000x32, .f32⟩
  | .hbm, ⟨75, _⟩ => ⟨S_, .f32⟩
  | .hbm, ⟨76, _⟩ => ⟨S1000000x32, .f32⟩
  | .hbm, ⟨77, _⟩ => ⟨S1000000x32, .f32⟩
  | .hbm, ⟨78, _⟩ => ⟨S1000000x32, .f32⟩
  | .hbm, ⟨79, _⟩ => ⟨S1x32, .f32⟩
  | .hbm, ⟨80, _⟩ => ⟨S1000000x32, .f32⟩
  | .hbm, ⟨81, _⟩ => ⟨S1000000x32, .f32⟩
  | .hbm, ⟨82, _⟩ => ⟨S1000000x32, .f32⟩
  | .hbm, ⟨83, _⟩ => ⟨S1000000x32, .f32⟩
  | .hbm, ⟨84, _⟩ => ⟨S1x32, .f32⟩
  | .hbm, ⟨85, _⟩ => ⟨S1000000x32, .f32⟩
  | .hbm, ⟨86, _⟩ => ⟨S1000000x32, .f32⟩
  | .hbm, ⟨87, _⟩ => ⟨S1x32, .f32⟩
  | .hbm, ⟨88, _⟩ => ⟨S1000000x32, .f32⟩
  | .hbm, ⟨89, _⟩ => ⟨S1000000x32, .f32⟩
  | .hbm, ⟨90, _⟩ => ⟨S1000000x32, .f32⟩
  | .hbm, ⟨91, _⟩ => ⟨S1000000x32, .f32⟩
  | .hbm, ⟨92, _⟩ => ⟨S1000000x32, .f32⟩
  | .hbm, ⟨93, _⟩ => ⟨S1000000x32, .f32⟩
  | .hbm, ⟨94, _⟩ => ⟨S1000000x32, .f32⟩
  | .hbm, ⟨95, _⟩ => ⟨S1x32, .f32⟩
  | .hbm, ⟨96, _⟩ => ⟨S1000000x32, .f32⟩
  | .hbm, ⟨97, _⟩ => ⟨S1000000x32, .f32⟩
  | .hbm, ⟨98, _⟩ => ⟨S1000000x32, .f32⟩
  | .hbm, ⟨99, _⟩ => ⟨S1000000x32, .f32⟩
  | .hbm, ⟨100, _⟩ => ⟨S1x32, .f32⟩
  | .hbm, ⟨101, _⟩ => ⟨S1000000x32, .f32⟩
  | .hbm, ⟨102, _⟩ => ⟨S1000000x32, .f32⟩
  | .hbm, ⟨103, _⟩ => ⟨S1x32, .f32⟩
  | .hbm, ⟨104, _⟩ => ⟨S1000000x32, .f32⟩
  | .hbm, ⟨105, _⟩ => ⟨S1000000x32, .f32⟩
  | .hbm, ⟨106, _⟩ => ⟨S1000000x32, .f32⟩
  | .hbm, ⟨107, _⟩ => ⟨S1x32, .f32⟩
  | .hbm, ⟨108, _⟩ => ⟨S1000000x32, .f32⟩
  | .hbm, ⟨109, _⟩ => ⟨S1000000x32, .f32⟩
  | .hbm, ⟨110, _⟩ => ⟨S1000000x32, .f32⟩
  | .hbm, ⟨111, _⟩ => ⟨S1000000x32, .f32⟩
  | .hbm, ⟨112, _⟩ => ⟨S_, .f32⟩
  | .hbm, ⟨113, _⟩ => ⟨S1000000x32, .f32⟩
  | .hbm, ⟨114, _⟩ => ⟨S1000000x32, .f32⟩
  | .hbm, ⟨115, _⟩ => ⟨S_, .f32⟩
  | .hbm, ⟨116, _⟩ => ⟨S1000000x32, .f32⟩
  | .hbm, ⟨117, _⟩ => ⟨S1000000x32, .f32⟩
  | .hbm, ⟨118, _⟩ => ⟨S1000000x32, .f32⟩
  | .hbm, ⟨119, _⟩ => ⟨S1000000x32, .f32⟩
  | .hbm, ⟨120, _⟩ => ⟨S_, .f32⟩
  | .hbm, ⟨121, _⟩ => ⟨S1000000x32, .f32⟩
  | .hbm, ⟨122, _⟩ => ⟨S1000000x32, .f32⟩
  | .hbm, ⟨123, _⟩ => ⟨S1000000x9, .f32⟩
  | .hbm, ⟨124, _⟩ => ⟨S1x9, .f32⟩
  | .hbm, ⟨125, _⟩ => ⟨S1000000x9, .f32⟩
  | .hbm, ⟨126, _⟩ => ⟨S1000000x9, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst : Ref sig .tc := ⟨.hbm, 48, rfl⟩
abbrev main_v18 : Ref sig .tc := ⟨.hbm, 49, rfl⟩
abbrev main_v19 : Ref sig .tc := ⟨.hbm, 50, rfl⟩
abbrev main_cst_0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_1 : Ref sig .tc := ⟨.hbm, 72, rfl⟩
abbrev main_v40 : Ref sig .tc := ⟨.hbm, 73, rfl⟩
abbrev main_v41 : Ref sig .tc := ⟨.hbm, 74, rfl⟩
abbrev main_cst_2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_3 : Ref sig .tc := ⟨.hbm, 112, rfl⟩
abbrev main_v78 : Ref sig .tc := ⟨.hbm, 113, rfl⟩
abbrev main_v79 : Ref sig .tc := ⟨.hbm, 114, rfl⟩
abbrev main_cst_4 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_call0_cst : Ref sig .tc := ⟨.hbm, 120, rfl⟩
abbrev main_call0_v0 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S9_S1x9_1 : S9.BroadcastsInDim S1x9 (![1] : Fin 1 → Fin S1x9.rank)
  bcast_S1x9_S1000000x9_0_1 : S1x9.BroadcastsInDim S1000000x9 (![0, 1] : Fin 2 → Fin S1000000x9.rank)
  dot_S1000000x8_S8x32_S1000000x32_1_0_0_1_n_n_wf : DotDims.WF S1000000x8 S8x32 S1000000x32 [1] [0] [0] [1] [] []
  dot_S1000000x32_S32x32_S1000000x32_1_0_0_1_n_n_wf : DotDims.WF S1000000x32 S32x32 S1000000x32 [1] [0] [0] [1] [] []
  dot_S1000000x32_S32x9_S1000000x9_1_0_0_1_n_n_wf : DotDims.WF S1000000x32 S32x9 S1000000x9 [1] [0] [0] [1] [] []

variable [Facts₀]

def dot_S1000000x8_S8x32_S1000000x32_1_0_0_1_n_n : DotDims S1000000x8 S8x32 S1000000x32 where
  lhsContracting := [1]
  rhsContracting := [0]
  lhsNonContracting := [0]
  rhsNonContracting := [1]
  lhsBatch := []
  rhsBatch := []
  wf := dot_S1000000x8_S8x32_S1000000x32_1_0_0_1_n_n_wf
def dot_S1000000x32_S32x32_S1000000x32_1_0_0_1_n_n : DotDims S1000000x32 S32x32 S1000000x32 where
  lhsContracting := [1]
  rhsContracting := [0]
  lhsNonContracting := [0]
  rhsNonContracting := [1]
  lhsBatch := []
  rhsBatch := []
  wf := dot_S1000000x32_S32x32_S1000000x32_1_0_0_1_n_n_wf
def dot_S1000000x32_S32x9_S1000000x9_1_0_0_1_n_n : DotDims S1000000x32 S32x9 S1000000x9 where
  lhsContracting := [1]
  rhsContracting := [0]
  lhsNonContracting := [0]
  rhsNonContracting := [1]
  lhsBatch := []
  rhsBatch := []
  wf := dot_S1000000x32_S32x9_S1000000x9_1_0_0_1_n_n_wf

class Facts : Prop extends Facts₀ where

variable [Facts]
-- ==== Proof.TiledWords.lean ====
/-
  The tiled program runs to the end and leaves its thirty argument arrays as it found them; and what it leaves in
  its three result arrays, tile by tile.

  @main first adds each gate's three bias rows, stacks the four gates' weights side by side and narrows the stacked
  matrices and the read-out matrix to bf16 (fourteen host operations, none of which writes an argument array), then
  runs one grid of 250 points. Point t is handed rows 4000t … 4000t+3999 of x, h and c and the eight small weight
  arrays whole (these are fetched once, at the first point, and found in place afterwards), and stores one whole
  4000-row tile into each of y, h0 and c0, written back at every point. The body loads, computes and stores through
  whole-tile rectangles only, so what a result tile holds after the body is the stored value itself — `tileY`,
  `tileH`, `tileC` below, over the skeleton's pure terms — and the run's post has every result array assembled from
  those tiles (`run_main`). `frame` is the statement that every weakly fair execution terminates without a fault
  with the arguments unchanged, at any float instance.
-/
import proofs.«181031_j70781061038141_2_alg».proof.Proof.Gen.Kernel.Launch
import proofs.«181031_j70781061038141_2_alg».proof.Proof.Gen.Kernel.Skeleton
import proofs.«181031_j70781061038141_2_alg».proof.Proof.Gen.Kernel.Points
import Idealize.ShloMosaic.Lib.Pipeline.FrameBody
import Idealize.ShloMosaic.Lib.Ring
import Idealize.ShloMosaic.Lib.Tactic

-- membership in a 4000-row rectangle is checked structurally, once per coordinate of the long axis
set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- Core `c`'s buffers when the grid is entered: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes a buffer of its own (`main_v0` … `main_v13`), so the grid finds every argument array as
    launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The tiles -/

/-- Window `w`'s tile at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its tile at every point, whether the point fetched it or found it in place
    (the tile's index has not moved since it was fetched), for any proof data over `V` whose body leaves inputs alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's post -/

/-- From a run whose post has every window's array at what the proof data assembles and every other buffer as the grid
    found it: an argument a window stages is an input window's array, unchanged; the others are among the rest. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).1 8).trans (((dats 0 c).arrAt_in 8 rfl _).trans ((hA c 8).trans (V_main_arg27 m c))),
      ((h c).2 main_arg28 (Pipeline.mem_restRefs_of main_arg28 (by decide) (by decide))).trans (V_main_arg28 m c),
      ((h c).1 10).trans (((dats 0 c).arrAt_in 10 rfl _).trans ((hA c 10).trans (V_main_arg29 m c)))⟩) h

/-! ## The body's rectangles: each a whole tile -/

abbrev rX : Rect S4000x8 := Rect.unit (s := S4000x8) ![0, 0] S4000x8.size inb_S4000x8_S4000x8_0_0
abbrev rN : Rect S4000x32 := Rect.unit (s := S4000x32) ![0, 0] S4000x32.size inb_S4000x32_S4000x32_0_0
abbrev rWX : Rect S8x128 := Rect.unit (s := S8x128) ![0, 0] S8x128.size inb_S8x128_S8x128_0_0
abbrev rWH : Rect S32x128 := Rect.unit (s := S32x128) ![0, 0] S32x128.size inb_S32x128_S32x128_0_0
abbrev rB : Rect S128 := Rect.unit (s := S128) ![0] S128.size inb_S128_S128_0
abbrev rP : Rect S32 := Rect.unit (s := S32) ![0] S32.size inb_S32_S32_0
abbrev rWL : Rect S32x9 := Rect.unit (s := S32x9) ![0, 0] S32x9.size inb_S32x9_S32x9_0_0
abbrev rBL : Rect S9 := Rect.unit (s := S9) ![0] S9.size inb_S9_S9_0
abbrev rY : Rect S4000x9 := Rect.unit (s := S4000x9) ![0, 0] S4000x9.size inb_S4000x9_S4000x9_0_0

/-! ## What the body leaves in each result window's buffer -/

/-- The y tile: one whole-tile store of the read-out. -/
def tileY (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x9 .f32 :=
  View.canon [⟨rY, k0_pay3 (View.ld x8 rP) (k0_pay4 (View.ld x9 rWL)) (View.ld x10 rBL) (k0_pay6 (View.ld x0 rX) (View.ld x1 rN) (View.ld x3 rWX) (View.ld x4 rWH) (View.ld x5 rB)) (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- The h0 tile: one whole-tile store of the new hidden rows. -/
def tileH (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x32 .f32 :=
  View.canon [⟨rN, k0_pay2 (View.ld x8 rP) (k0_pay6 (View.ld x0 rX) (View.ld x1 rN) (View.ld x3 rWX) (View.ld x4 rWH) (View.ld x5 rB)) (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- The c0 tile: one whole-tile store of the new cell rows. -/
def tileC (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x32 .f32 :=
  View.canon [⟨rN, k0_pay1 (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- A whole-tile store covers its buffer. -/
theorem coverY (p0 : Vec F S4000x9 .f32) (y : S4000x9.Idx) :
    ∃ pc ∈ ([⟨rY, p0⟩] : List (View.Piece (Elt F) S4000x9 .f32)), y ∈ pc.1.set :=
  View.cover_of_tiled [⟨rY, p0⟩] S4000x9.size (by rfl) y
theorem coverN (p0 : Vec F S4000x32 .f32) (y : S4000x32.Idx) :
    ∃ pc ∈ ([⟨rN, p0⟩] : List (View.Piece (Elt F) S4000x32 .f32)), y ∈ pc.1.set :=
  View.cover_of_tiled [⟨rN, p0⟩] S4000x32.size (by rfl) y

/-! ## The body's triple -/

set_option maxHeartbeats 4000000 in
/-- The body on whole staging buffers — the inputs' at contents `xW`, the results' at anything — runs to its end with the
    inputs' as they were and each result's at its tile. -/
theorem sound_kernel (c : Dev nD) (E : Set ℕ) (i : grid0.Coords) (arg1 : Memref sig .tc .vmem S4000x8 .f32) (harg1 : arg1.IsWhole) (arg2 : Memref sig .tc .vmem S4000x32 .f32) (harg2 : arg2.IsWhole) (arg3 : Memref sig .tc .vmem S4000x32 .f32) (harg3 : arg3.IsWhole) (arg4 : Memref sig .tc .vmem S8x128 .bf16) (harg4 : arg4.IsWhole) (arg5 : Memref sig .tc .vmem S32x128 .bf16) (harg5 : arg5.IsWhole) (arg6 : Memref sig .tc .vmem S128 .f32) (harg6 : arg6.IsWhole) (arg7 : Memref sig .tc .vmem S32 .f32) (harg7 : arg7.IsWhole) (arg8 : Memref sig .tc .vmem S32 .f32) (harg8 : arg8.IsWhole) (arg9 : Memref sig .tc .vmem S32 .f32) (harg9 : arg9.IsWhole) (arg10 : Memref sig .tc .vmem S32x9 .bf16) (harg10 : arg10.IsWhole) (arg11 : Memref sig .tc .vmem S9 .f32) (harg11 : arg11.IsWhole) (arg12 : Memref sig .tc .vmem S4000x9 .f32) (harg12 : arg12.IsWhole) (arg13 : Memref sig .tc .vmem S4000x32 .f32) (harg13 : arg13.IsWhole) (arg14 : Memref sig .tc .vmem S4000x32 .f32) (harg14 : arg14.IsWhole)
    (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (tileY x0 x1 x2 x3 x4 x5 x6 x7 x8 x9 x10) ∗ owns (c : Thread nD τ) arg13 fullShare (tileH x0 x1 x2 x3 x4 x5 x6 x7 x8 x9 x10) ∗ owns (c : Thread nD τ) arg14 fullShare (tileC x0 x1 x2 x3 x4 x5 x6 x7 x8 x9 x10)) -∗ K ⟨⟩))
      ⊢ wp frame (wpE (defs₀ (F := F)) Variants.none c none) E (cc0__gconvlstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gconvlstm_kernel_eq_skeleton]; unfold cc0__gconvlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverY _)
  isplitl [H12]
  · iexists _; isplitr
    swap; · iexact H12
    ipureintro
    exact View.read_writes_eq_canon _ _ _ (coverN _)
  iexists _; isplitr
  swap; · iexact H13
  ipureintro
  exact View.read_writes_eq_canon _ _ _ (coverN _)

/-! ## The proof data -/

/-- On core `c`: the arrays as the grid finds them; after the body at point `t` each input's buffer at its tile and each
    result's at its tile of the input tiles; nothing of the body's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileY (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => tileH (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => tileC (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = tileY (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after12 (c : Dev nD) (t : Fin cfg0.N) : (dats m 0 c).after 12 t = tileH (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after13 (c : Dev nD) (t : Fin cfg0.N) : (dats m 0 c).after 13 t = tileC (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their tiles, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has each
    window's array at what the proof data assembles from the tiles and every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.Kernel.Tiled

end
-- ==== Proof.TiledIdeal.lean ====
/-
  The tiled program runs to the end and leaves its thirty argument arrays as it found them; and what it leaves in
  its three result arrays, tile by tile.

  @main first adds each gate's three bias rows, stacks the four gates' weights side by side and narrows the stacked
  matrices and the read-out matrix to bf16 (fourteen host operations, none of which writes an argument array), then
  runs one grid of 250 points. Point t is handed rows 4000t … 4000t+3999 of x, h and c and the eight small weight
  arrays whole (these are fetched once, at the first point, and found in place afterwards), and stores one whole
  4000-row tile into each of y, h0 and c0, written back at every point. The body loads, computes and stores through
  whole-tile rectangles only, so what a result tile holds after the body is the stored value itself — `tileY`,
  `tileH`, `tileC` below, over the skeleton's pure terms — and the run's post has every result array assembled from
  those tiles (`run_main`). `frame` is the statement that every weakly fair execution terminates without a fault
  with the arguments unchanged, at any float instance.
-/
import proofs.«181031_j70781061038141_2_alg».proof.Proof.Gen.KernelIdeal.Launch
import proofs.«181031_j70781061038141_2_alg».proof.Proof.Gen.KernelIdeal.Skeleton
import proofs.«181031_j70781061038141_2_alg».proof.Proof.Gen.KernelIdeal.Points
import Idealize.ShloMosaic.Lib.Pipeline.FrameBody
import Idealize.ShloMosaic.Lib.Ring
import Idealize.ShloMosaic.Lib.Tactic

-- membership in a 4000-row rectangle is checked structurally, once per coordinate of the long axis
set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the grid -/

/-- Core `c`'s buffers when the grid is entered: the launch memory after the fourteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes a buffer of its own (`main_v0` … `main_v13`), so the grid finds every argument array as
    launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The tiles -/

/-- Window `w`'s tile at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current buffer holds its tile at every point, whether the point fetched it or found it in place
    (the tile's index has not moved since it was fetched), for any proof data over `V` whose body leaves inputs alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's post -/

/-- From a run whose post has every window's array at what the proof data assembles and every other buffer as the grid
    found it: an argument a window stages is an input window's array, unchanged; the others are among the rest. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats 0 c).arrAt_in 7 rfl _).trans ((hA c 7).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).1 8).trans (((dats 0 c).arrAt_in 8 rfl _).trans ((hA c 8).trans (V_main_arg27 m c))),
      ((h c).2 main_arg28 (Pipeline.mem_restRefs_of main_arg28 (by decide) (by decide))).trans (V_main_arg28 m c),
      ((h c).1 10).trans (((dats 0 c).arrAt_in 10 rfl _).trans ((hA c 10).trans (V_main_arg29 m c)))⟩) h

/-! ## The body's rectangles: each a whole tile -/

abbrev rX : Rect S4000x8 := Rect.unit (s := S4000x8) ![0, 0] S4000x8.size inb_S4000x8_S4000x8_0_0
abbrev rN : Rect S4000x32 := Rect.unit (s := S4000x32) ![0, 0] S4000x32.size inb_S4000x32_S4000x32_0_0
abbrev rWX : Rect S8x128 := Rect.unit (s := S8x128) ![0, 0] S8x128.size inb_S8x128_S8x128_0_0
abbrev rWH : Rect S32x128 := Rect.unit (s := S32x128) ![0, 0] S32x128.size inb_S32x128_S32x128_0_0
abbrev rB : Rect S128 := Rect.unit (s := S128) ![0] S128.size inb_S128_S128_0
abbrev rP : Rect S32 := Rect.unit (s := S32) ![0] S32.size inb_S32_S32_0
abbrev rWL : Rect S32x9 := Rect.unit (s := S32x9) ![0, 0] S32x9.size inb_S32x9_S32x9_0_0
abbrev rBL : Rect S9 := Rect.unit (s := S9) ![0] S9.size inb_S9_S9_0
abbrev rY : Rect S4000x9 := Rect.unit (s := S4000x9) ![0, 0] S4000x9.size inb_S4000x9_S4000x9_0_0

/-! ## What the body leaves in each result window's buffer -/

/-- The y tile: one whole-tile store of the read-out. -/
def tileY (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x9 .f32 :=
  View.canon [⟨rY, k0_pay3 (View.ld x8 rP) (k0_pay4 (View.ld x9 rWL)) (View.ld x10 rBL) (k0_pay6 (View.ld x0 rX) (View.ld x1 rN) (View.ld x3 rWX) (View.ld x4 rWH) (View.ld x5 rB)) (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- The h0 tile: one whole-tile store of the new hidden rows. -/
def tileH (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x32 .f32 :=
  View.canon [⟨rN, k0_pay2 (View.ld x8 rP) (k0_pay6 (View.ld x0 rX) (View.ld x1 rN) (View.ld x3 rWX) (View.ld x4 rWH) (View.ld x5 rB)) (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- The c0 tile: one whole-tile store of the new cell rows. -/
def tileC (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) : Vec F S4000x32 .f32 :=
  View.canon [⟨rN, k0_pay1 (k0_pay7 (View.ld x0 rX) (View.ld x1 rN) (View.ld x2 rN) (View.ld x3 rWX) (View.ld x4 rWH) (View.ld x5 rB) (View.ld x7 rP)) (k0_pay8 (View.ld x0 rX) (View.ld x1 rN) (View.ld x2 rN) (View.ld x3 rWX) (View.ld x4 rWH) (View.ld x5 rB) (View.ld x6 rP))⟩]

/-- A whole-tile store covers its buffer. -/
theorem coverY (p0 : Vec F S4000x9 .f32) (y : S4000x9.Idx) :
    ∃ pc ∈ ([⟨rY, p0⟩] : List (View.Piece (Elt F) S4000x9 .f32)), y ∈ pc.1.set :=
  View.cover_of_tiled [⟨rY, p0⟩] S4000x9.size (by rfl) y
theorem coverN (p0 : Vec F S4000x32 .f32) (y : S4000x32.Idx) :
    ∃ pc ∈ ([⟨rN, p0⟩] : List (View.Piece (Elt F) S4000x32 .f32)), y ∈ pc.1.set :=
  View.cover_of_tiled [⟨rN, p0⟩] S4000x32.size (by rfl) y

/-! ## The body's triple -/

set_option maxHeartbeats 4000000 in
/-- The body on whole staging buffers — the inputs' at contents `xW`, the results' at anything — runs to its end with the
    inputs' as they were and each result's at its tile. -/
theorem sound_kernel (c : Dev nD) (E : Set ℕ) (i : grid0.Coords) (arg1 : Memref sig .tc .vmem S4000x8 .f32) (harg1 : arg1.IsWhole) (arg2 : Memref sig .tc .vmem S4000x32 .f32) (harg2 : arg2.IsWhole) (arg3 : Memref sig .tc .vmem S4000x32 .f32) (harg3 : arg3.IsWhole) (arg4 : Memref sig .tc .vmem S8x128 .bf16) (harg4 : arg4.IsWhole) (arg5 : Memref sig .tc .vmem S32x128 .bf16) (harg5 : arg5.IsWhole) (arg6 : Memref sig .tc .vmem S128 .f32) (harg6 : arg6.IsWhole) (arg7 : Memref sig .tc .vmem S32 .f32) (harg7 : arg7.IsWhole) (arg8 : Memref sig .tc .vmem S32 .f32) (harg8 : arg8.IsWhole) (arg9 : Memref sig .tc .vmem S32 .f32) (harg9 : arg9.IsWhole) (arg10 : Memref sig .tc .vmem S32x9 .bf16) (harg10 : arg10.IsWhole) (arg11 : Memref sig .tc .vmem S9 .f32) (harg11 : arg11.IsWhole) (arg12 : Memref sig .tc .vmem S4000x9 .f32) (harg12 : arg12.IsWhole) (arg13 : Memref sig .tc .vmem S4000x32 .f32) (harg13 : arg13.IsWhole) (arg14 : Memref sig .tc .vmem S4000x32 .f32) (harg14 : arg14.IsWhole)
    (x0 : Vec F S4000x8 .f32) (x1 : Vec F S4000x32 .f32) (x2 : Vec F S4000x32 .f32) (x3 : Vec F S8x128 .bf16) (x4 : Vec F S32x128 .bf16) (x5 : Vec F S128 .f32) (x6 : Vec F S32 .f32) (x7 : Vec F S32 .f32) (x8 : Vec F S32 .f32) (x9 : Vec F S32x9 .bf16) (x10 : Vec F S9 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (tileY x0 x1 x2 x3 x4 x5 x6 x7 x8 x9 x10) ∗ owns (c : Thread nD τ) arg13 fullShare (tileH x0 x1 x2 x3 x4 x5 x6 x7 x8 x9 x10) ∗ owns (c : Thread nD τ) arg14 fullShare (tileC x0 x1 x2 x3 x4 x5 x6 x7 x8 x9 x10)) -∗ K ⟨⟩))
      ⊢ wp frame (wpE (defs₀ (F := F)) Variants.none c none) E (cc0__gconvlstm_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gconvlstm_kernel_eq_skeleton]; unfold cc0__gconvlstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverY _)
  isplitl [H12]
  · iexists _; isplitr
    swap; · iexact H12
    ipureintro
    exact View.read_writes_eq_canon _ _ _ (coverN _)
  iexists _; isplitr
  swap; · iexact H13
  ipureintro
  exact View.read_writes_eq_canon _ _ _ (coverN _)

/-! ## The proof data -/

/-- On core `c`: the arrays as the grid finds them; after the body at point `t` each input's buffer at its tile and each
    result's at its tile of the input tiles; nothing of the body's own to keep; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => tileY (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => tileH (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => tileC (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = tileY (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after12 (c : Dev nD) (t : Fin cfg0.N) : (dats m 0 c).after 12 t = tileH (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after13 (c : Dev nD) (t : Fin cfg0.N) : (dats m 0 c).after 13 t = tileC (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- At any point the inputs' buffers hold their tiles, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of @main terminates, and every final state has each
    window's array at what the proof data assembles from the tiles and every other unscoped buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of m ρ (dats m) (A_eq m) (run_main m ρ)

end Cert.KernelIdeal.Tiled

end
-- ==== Proof.Cell.lean ====
/-
  The cell both programs compute, one node (row) at a time.

  A node has an input row `xr` (8 features), a hidden row `hr` and a cell row `cr` (32 each). Each of the four
  gates g ∈ {i, f, c, o} has weights `Wx` (8×32), `Wh` (32×32) and three bias rows `bx`, `bh`, `b`; the gates
  i, f, o also have a peephole row `wc`. With σ the logistic function, on the extended reals:

    lin_g j = ((Σ_k xr k · Wx_g k j + bx_g j) + Σ_k hr k · Wh_g k j) + bh_g j
    i j  = σ((lin_i j + wci j · cr j) + b_i j)        f j = σ((lin_f j + wcf j · cr j) + b_f j)
    t j  = tanh(lin_c j + b_c j)                      c0 j = f j · cr j + i j · t j
    o j  = σ((lin_o j + wco j · c0 j) + b_o j)        h0 j = o j · tanh(c0 j)
    y q  = Σ_k max(h0 k, 0) · Wl k q + bl q

  That is the order in which the plain program adds. The tiled program first stacks the four gates' weights side
  by side (8×128 and 32×128), adds the three bias rows of each gate into one row of 128, and computes
  (Σ_k xr k · WX k J + Σ_k hr k · WH k J) + B J for all 128 columns at once (`stackedPre`), gate g reading columns
  32g … 32g+31. The two differ only in how a sum of five or six terms is bracketed, and addition of extended
  reals is commutative and associative (with ⊥ + ⊤ = ⊥ both ways), so they agree with no finiteness assumption.
-/
import Idealize.ShloMosaic.PureOps.Ideal
import Idealize.ShloMosaic.Lib.ValueIdx

noncomputable section

namespace Cert.Cell

open Idealize.ShloMosaic Idealize.ShloMosaic.ValueIdx

/-- A matrix and a row of extended reals, indexed as the printed arrays are. -/
abbrev Mat (a b : Nat) : Type := (⟨2, ![a, b]⟩ : Shape).Idx → EReal
abbrev Row (a : Nat) : Type := (⟨1, ![a]⟩ : Shape).Idx → EReal

/-- Row `n` of a matrix. -/
def row {a b : Nat} (M : Mat a b) (n : Fin a) : Fin b → EReal := fun k => M (ix2 n k)

/-- One gate's weights. -/
structure Gate where
  Wx : Mat 8 32
  bx : Row 32
  Wh : Mat 32 32
  bh : Row 32
  b : Row 32

/-- The gate's linear part at column `j`, added in the plain program's order. -/
def Gate.lin (g : Gate) (xr : Fin 8 → EReal) (hr : Fin 32 → EReal) (j : Fin 32) : EReal :=
  (((∑ k : Fin 8, xr k * g.Wx (ix2 k j)) + g.bx (ix1 j)) + ∑ k : Fin 32, hr k * g.Wh (ix2 k j)) + g.bh (ix1 j)

/-- A gate with a peephole: σ of the linear part, the peephole term and the last bias. -/
def Gate.peep (g : Gate) (wc : Row 32) (xr : Fin 8 → EReal) (hr : Fin 32 → EReal) (cell : EReal) (j : Fin 32) : EReal :=
  Ideal.logistic ((g.lin xr hr j + wc (ix1 j) * cell) + g.b (ix1 j))

/-- The new cell state at column `j`. -/
def c0 (gi gf gc : Gate) (wci wcf : Row 32) (xr : Fin 8 → EReal) (hr cr : Fin 32 → EReal) (j : Fin 32) : EReal :=
  gf.peep wcf xr hr (cr j) j * cr j + gi.peep wci xr hr (cr j) j * Ideal.tanh (gc.lin xr hr j + gc.b (ix1 j))

/-- The new hidden state at column `j`. -/
def h0 (gi gf gc go : Gate) (wci wcf wco : Row 32) (xr : Fin 8 → EReal) (hr cr : Fin 32 → EReal) (j : Fin 32) : EReal :=
  go.peep wco xr hr (c0 gi gf gc wci wcf xr hr cr j) j * Ideal.tanh (c0 gi gf gc wci wcf xr hr cr j)

/-- The read-out at column `q`: the rectified hidden row through `Wl`, plus `bl`. `z` is the zero the hidden row is
    rectified against (both programs write it as the f32 word 0). -/
def y (gi gf gc go : Gate) (wci wcf wco : Row 32) (Wl : Mat 32 9) (bl : Row 9) (z : EReal)
    (xr : Fin 8 → EReal) (hr cr : Fin 32 → EReal) (q : Fin 9) : EReal :=
  (∑ k : Fin 32, max (h0 gi gf gc go wci wcf wco xr hr cr k) z * Wl (ix2 k q)) + bl (ix1 q)

/-! ## The three results over all 1,000,000 nodes -/

def C0 (gi gf gc : Gate) (wci wcf : Row 32) (x : Mat 1000000 8) (h c : Mat 1000000 32) : Mat 1000000 32 :=
  fun i => c0 gi gf gc wci wcf (row x (i 0 : Fin 1000000)) (row h (i 0 : Fin 1000000)) (row c (i 0 : Fin 1000000)) (i 1 : Fin 32)

def H0 (gi gf gc go : Gate) (wci wcf wco : Row 32) (x : Mat 1000000 8) (h c : Mat 1000000 32) : Mat 1000000 32 :=
  fun i => h0 gi gf gc go wci wcf wco (row x (i 0 : Fin 1000000)) (row h (i 0 : Fin 1000000)) (row c (i 0 : Fin 1000000)) (i 1 : Fin 32)

def Y (gi gf gc go : Gate) (wci wcf wco : Row 32) (Wl : Mat 32 9) (bl : Row 9) (z : EReal)
    (x : Mat 1000000 8) (h c : Mat 1000000 32) : Mat 1000000 9 :=
  fun i => y gi gf gc go wci wcf wco Wl bl z (row x (i 0 : Fin 1000000)) (row h (i 0 : Fin 1000000)) (row c (i 0 : Fin 1000000)) (i 1 : Fin 9)

/-! ## The tiled program's arrangement, over the stacked weights -/

/-- All four gates' linear parts at once: column `J` of 128. -/
def stackedPre (WX : Mat 8 128) (WH : Mat 32 128) (B : Row 128) (xr : Fin 8 → EReal) (hr : Fin 32 → EReal) (J : Fin 128) : EReal :=
  ((∑ k : Fin 8, xr k * WX (ix2 k J)) + ∑ k : Fin 32, hr k * WH (ix2 k J)) + B (ix1 J)

/-- Column `j` of gate `g` (0 = i, 1 = f, 2 = c, 3 = o) among the 128 stacked columns. -/
def col (g : Fin 4) (j : Fin 32) : Fin 128 := ⟨32 * g.val + j.val, by omega⟩

def sc0 (WX : Mat 8 128) (WH : Mat 32 128) (B : Row 128) (wci wcf : Row 32)
    (xr : Fin 8 → EReal) (hr cr : Fin 32 → EReal) (j : Fin 32) : EReal :=
  Ideal.logistic (stackedPre WX WH B xr hr (col 1 j) + wcf (ix1 j) * cr j) * cr j
    + Ideal.logistic (stackedPre WX WH B xr hr (col 0 j) + wci (ix1 j) * cr j) * Ideal.tanh (stackedPre WX WH B xr hr (col 2 j))

def sh0 (WX : Mat 8 128) (WH : Mat 32 128) (B : Row 128) (wci wcf wco : Row 32)
    (xr : Fin 8 → EReal) (hr cr : Fin 32 → EReal) (j : Fin 32) : EReal :=
  Ideal.logistic (stackedPre WX WH B xr hr (col 3 j) + wco (ix1 j) * sc0 WX WH B wci wcf xr hr cr j)
    * Ideal.tanh (sc0 WX WH B wci wcf xr hr cr j)

def sy (WX : Mat 8 128) (WH : Mat 32 128) (B : Row 128) (wci wcf wco : Row 32) (Wl : Mat 32 9) (bl : Row 9) (z : EReal)
    (xr : Fin 8 → EReal) (hr cr : Fin 32 → EReal) (q : Fin 9) : EReal :=
  (∑ k : Fin 32, max (sh0 WX WH B wci wcf wco xr hr cr k) z * Wl (ix2 k q)) + bl (ix1 q)

/-- The four gates in stacking order. -/
def gates (gi gf gc go : Gate) : Fin 4 → Gate := fun g =>
  match g with
  | 0 => gi
  | 1 => gf
  | 2 => gc
  | 3 => go

/-! ## The two arrangements agree -/

/-- What stacking means, column by column: the stacked matrices hold gate `g`'s in columns 32g…32g+31, and the stacked
    bias row holds `(bx + bh) + b` of gate `g` there. -/
structure Stacks (gs : Fin 4 → Gate) (WX : Mat 8 128) (WH : Mat 32 128) (B : Row 128) : Prop where
  wx : ∀ (g : Fin 4) (k : Fin 8) (j : Fin 32), WX (ix2 k (col g j)) = (gs g).Wx (ix2 k j)
  wh : ∀ (g : Fin 4) (k : Fin 32) (j : Fin 32), WH (ix2 k (col g j)) = (gs g).Wh (ix2 k j)
  b : ∀ (g : Fin 4) (j : Fin 32), B (ix1 (col g j)) = ((gs g).bx (ix1 j) + (gs g).bh (ix1 j)) + (gs g).b (ix1 j)

variable {gs : Fin 4 → Gate} {WX : Mat 8 128} {WH : Mat 32 128} {B : Row 128}

/-- The stacked column is the gate's linear part plus its last bias, re-bracketed. -/
theorem stackedPre_col (hS : Stacks gs WX WH B) (xr : Fin 8 → EReal) (hr : Fin 32 → EReal) (g : Fin 4) (j : Fin 32) :
    stackedPre WX WH B xr hr (col g j) = (gs g).lin xr hr j + (gs g).b (ix1 j) := by
  unfold stackedPre Gate.lin
  simp only [hS.wx, hS.wh, hS.b]
  ac_rfl

/-- With a peephole term `p` in between: the same re-bracketing. -/
theorem stackedPre_col_peep (hS : Stacks gs WX WH B) (xr : Fin 8 → EReal) (hr : Fin 32 → EReal) (g : Fin 4) (j : Fin 32) (p : EReal) :
    stackedPre WX WH B xr hr (col g j) + p = ((gs g).lin xr hr j + p) + (gs g).b (ix1 j) := by
  rw [stackedPre_col hS]
  ac_rfl

theorem sc0_eq (hS : Stacks gs WX WH B) (wci wcf : Row 32) (xr : Fin 8 → EReal) (hr cr : Fin 32 → EReal) (j : Fin 32) :
    sc0 WX WH B wci wcf xr hr cr j = c0 (gs 0) (gs 1) (gs 2) wci wcf xr hr cr j := by
  unfold sc0 c0 Gate.peep
  rw [stackedPre_col_peep hS, stackedPre_col_peep hS, stackedPre_col hS]

theorem sh0_eq (hS : Stacks gs WX WH B) (wci wcf wco : Row 32) (xr : Fin 8 → EReal) (hr cr : Fin 32 → EReal) (j : Fin 32) :
    sh0 WX WH B wci wcf wco xr hr cr j = h0 (gs 0) (gs 1) (gs 2) (gs 3) wci wcf wco xr hr cr j := by
  unfold sh0 h0 Gate.peep
  rw [stackedPre_col_peep hS, sc0_eq hS]

theorem sy_eq (hS : Stacks gs WX WH B) (wci wcf wco : Row 32) (Wl : Mat 32 9) (bl : Row 9) (z : EReal)
    (xr : Fin 8 → EReal) (hr cr : Fin 32 → EReal) (q : Fin 9) :
    sy WX WH B wci wcf wco Wl bl z xr hr cr q = y (gs 0) (gs 1) (gs 2) (gs 3) wci wcf wco Wl bl z xr hr cr q := by
  unfold sy y
  simp only [sh0_eq hS]

end Cert.Cell

end
-- ==== Proof.StackedWeights.lean ====
/-
  The stacked weights, column by column.

  Stacking four 32-column matrices side by side puts matrix g in columns 32g … 32g+31, and stacking four rows of 32
  end to end puts row g at positions 32g … 32g+31. Narrowing to bf16 changes nothing at the exact instance. So the three
  arrays the grid is handed are the stacks the cell's tiled arrangement is stated over (`Cell.Stacks`).
-/
import proofs.«181031_j70781061038141_2_alg».proof.Proof.Gen.KernelIdeal
import proofs.«181031_j70781061038141_2_alg».proof.Proof.Cell
import Idealize.ShloMosaic.Lib.Pipeline.Value
import Idealize.ShloMosaic.Lib.ValueIdx

noncomputable section

namespace Cert.KernelIdeal.Stacked

open Cert.KernelIdeal Cert.KernelIdeal.Facts₀ Cert.KernelIdeal.Facts Cert.Cell Idealize.ShloMosaic Idealize.ShloMosaic.ValueIdx

/-- Off the stacking axis an entry of the stack and of its piece have the same coordinate. -/
theorem cols8_off (k : Fin 8) (j : Fin 32) (g : Fin 4) : ∀ b : Fin S8x32.rank, b.cast (rfl : S8x32.rank = S8x128.rank) ≠ (1 : Fin S8x128.rank) →
    ((ix2 k j : S8x32.Idx) b).val = ((ix2 k (col g j) : S8x128.Idx) (b.cast rfl)).val := fun b hb => by
  match b with
  | ⟨0, _⟩ => rfl
  | ⟨1, _⟩ => exact absurd rfl hb
theorem cols32_off (k : Fin 32) (j : Fin 32) (g : Fin 4) : ∀ b : Fin S32x32.rank, b.cast (rfl : S32x32.rank = S32x128.rank) ≠ (1 : Fin S32x128.rank) →
    ((ix2 k j : S32x32.Idx) b).val = ((ix2 k (col g j) : S32x128.Idx) (b.cast rfl)).val := fun b hb => by
  match b with
  | ⟨0, _⟩ => rfl
  | ⟨1, _⟩ => exact absurd rfl hb
theorem rows32_off (j : Fin 32) (g : Fin 4) : ∀ b : Fin S32.rank, b.cast (rfl : S32.rank = S128.rank) ≠ (0 : Fin S128.rank) →
    ((ix1 j : S32.Idx) b).val = ((ix1 (col g j) : S128.Idx) (b.cast rfl)).val := fun b hb => by
  match b with
  | ⟨0, _⟩ => exact absurd rfl hb

/-! Four [8,32] matrices side by side, read at column 32g + j of row k: matrix g at (k, j). -/
theorem cols8_0 (a0 a1 a2 a3 : Mat 8 32) (k : Fin 8) (j : Fin 32) :
    concatenate S8x128 1 [⟨S8x32, a0⟩, ⟨S8x32, a1⟩, ⟨S8x32, a2⟩, ⟨S8x32, a3⟩] concatenates_S8x32_S8x32_S8x32_S8x32_S8x128_d1 (ix2 k (col 0 j)) = a0 (ix2 k j) :=
  concatenate_apply_piece (1 : Fin S8x128.rank) [⟨S8x32, a0⟩, ⟨S8x32, a1⟩, ⟨S8x32, a2⟩, ⟨S8x32, a3⟩] concatenates_S8x32_S8x32_S8x32_S8x32_S8x128_d1 (ix2 k (col 0 j)) 0 (by show (0 : Nat) < 4; omega) S8x32 a0 rfl rfl 0 rfl (ix2 k j)
    (cols8_off k j 0) (by show 0 + j.val = 32 * 0 + j.val; omega)
theorem cols8_1 (a0 a1 a2 a3 : Mat 8 32) (k : Fin 8) (j : Fin 32) :
    concatenate S8x128 1 [⟨S8x32, a0⟩, ⟨S8x32, a1⟩, ⟨S8x32, a2⟩, ⟨S8x32, a3⟩] concatenates_S8x32_S8x32_S8x32_S8x32_S8x128_d1 (ix2 k (col 1 j)) = a1 (ix2 k j) :=
  concatenate_apply_piece (1 : Fin S8x128.rank) [⟨S8x32, a0⟩, ⟨S8x32, a1⟩, ⟨S8x32, a2⟩, ⟨S8x32, a3⟩] concatenates_S8x32_S8x32_S8x32_S8x32_S8x128_d1 (ix2 k (col 1 j)) 1 (by show (1 : Nat) < 4; omega) S8x32 a1 rfl rfl 32 rfl (ix2 k j)
    (cols8_off k j 1) (by show 32 + j.val = 32 * 1 + j.val; omega)
theorem cols8_2 (a0 a1 a2 a3 : Mat 8 32) (k : Fin 8) (j : Fin 32) :
    concatenate S8x128 1 [⟨S8x32, a0⟩, ⟨S8x32, a1⟩, ⟨S8x32, a2⟩, ⟨S8x32, a3⟩] concatenates_S8x32_S8x32_S8x32_S8x32_S8x128_d1 (ix2 k (col 2 j)) = a2 (ix2 k j) :=
  concatenate_apply_piece (1 : Fin S8x128.rank) [⟨S8x32, a0⟩, ⟨S8x32, a1⟩, ⟨S8x32, a2⟩, ⟨S8x32, a3⟩] concatenates_S8x32_S8x32_S8x32_S8x32_S8x128_d1 (ix2 k (col 2 j)) 2 (by show (2 : Nat) < 4; omega) S8x32 a2 rfl rfl 64 rfl (ix2 k j)
    (cols8_off k j 2) (by show 64 + j.val = 32 * 2 + j.val; omega)
theorem cols8_3 (a0 a1 a2 a3 : Mat 8 32) (k : Fin 8) (j : Fin 32) :
    concatenate S8x128 1 [⟨S8x32, a0⟩, ⟨S8x32, a1⟩, ⟨S8x32, a2⟩, ⟨S8x32, a3⟩] concatenates_S8x32_S8x32_S8x32_S8x32_S8x128_d1 (ix2 k (col 3 j)) = a3 (ix2 k j) :=
  concatenate_apply_piece (1 : Fin S8x128.rank) [⟨S8x32, a0⟩, ⟨S8x32, a1⟩, ⟨S8x32, a2⟩, ⟨S8x32, a3⟩] concatenates_S8x32_S8x32_S8x32_S8x32_S8x128_d1 (ix2 k (col 3 j)) 3 (by show (3 : Nat) < 4; omega) S8x32 a3 rfl rfl 96 rfl (ix2 k j)
    (cols8_off k j 3) (by show 96 + j.val = 32 * 3 + j.val; omega)

/-! Four [32,32] matrices side by side, read at column 32g + j of row k. -/
theorem cols32_0 (a0 a1 a2 a3 : Mat 32 32) (k : Fin 32) (j : Fin 32) :
    concatenate S32x128 1 [⟨S32x32, a0⟩, ⟨S32x32, a1⟩, ⟨S32x32, a2⟩, ⟨S32x32, a3⟩] concatenates_S32x32_S32x32_S32x32_S32x32_S32x128_d1 (ix2 k (col 0 j)) = a0 (ix2 k j) :=
  concatenate_apply_piece (1 : Fin S32x128.rank) [⟨S32x32, a0⟩, ⟨S32x32, a1⟩, ⟨S32x32, a2⟩, ⟨S32x32, a3⟩] concatenates_S32x32_S32x32_S32x32_S32x32_S32x128_d1 (ix2 k (col 0 j)) 0 (by show (0 : Nat) < 4; omega) S32x32 a0 rfl rfl 0 rfl (ix2 k j)
    (cols32_off k j 0) (by show 0 + j.val = 32 * 0 + j.val; omega)
theorem cols32_1 (a0 a1 a2 a3 : Mat 32 32) (k : Fin 32) (j : Fin 32) :
    concatenate S32x128 1 [⟨S32x32, a0⟩, ⟨S32x32, a1⟩, ⟨S32x32, a2⟩, ⟨S32x32, a3⟩] concatenates_S32x32_S32x32_S32x32_S32x32_S32x128_d1 (ix2 k (col 1 j)) = a1 (ix2 k j) :=
  concatenate_apply_piece (1 : Fin S32x128.rank) [⟨S32x32, a0⟩, ⟨S32x32, a1⟩, ⟨S32x32, a2⟩, ⟨S32x32, a3⟩] concatenates_S32x32_S32x32_S32x32_S32x32_S32x128_d1 (ix2 k (col 1 j)) 1 (by show (1 : Nat) < 4; omega) S32x32 a1 rfl rfl 32 rfl (ix2 k j)
    (cols32_off k j 1) (by show 32 + j.val = 32 * 1 + j.val; omega)
theorem cols32_2 (a0 a1 a2 a3 : Mat 32 32) (k : Fin 32) (j : Fin 32) :
    concatenate S32x128 1 [⟨S32x32, a0⟩, ⟨S32x32, a1⟩, ⟨S32x32, a2⟩, ⟨S32x32, a3⟩] concatenates_S32x32_S32x32_S32x32_S32x32_S32x128_d1 (ix2 k (col 2 j)) = a2 (ix2 k j) :=
  concatenate_apply_piece (1 : Fin S32x128.rank) [⟨S32x32, a0⟩, ⟨S32x32, a1⟩, ⟨S32x32, a2⟩, ⟨S32x32, a3⟩] concatenates_S32x32_S32x32_S32x32_S32x32_S32x128_d1 (ix2 k (col 2 j)) 2 (by show (2 : Nat) < 4; omega) S32x32 a2 rfl rfl 64 rfl (ix2 k j)
    (cols32_off k j 2) (by show 64 + j.val = 32 * 2 + j.val; omega)
theorem cols32_3 (a0 a1 a2 a3 : Mat 32 32) (k : Fin 32) (j : Fin 32) :
    concatenate S32x128 1 [⟨S32x32, a0⟩, ⟨S32x32, a1⟩, ⟨S32x32, a2⟩, ⟨S32x32, a3⟩] concatenates_S32x32_S32x32_S32x32_S32x32_S32x128_d1 (ix2 k (col 3 j)) = a3 (ix2 k j) :=
  concatenate_apply_piece (1 : Fin S32x128.rank) [⟨S32x32, a0⟩, ⟨S32x32, a1⟩, ⟨S32x32, a2⟩, ⟨S32x32, a3⟩] concatenates_S32x32_S32x32_S32x32_S32x32_S32x128_d1 (ix2 k (col 3 j)) 3 (by show (3 : Nat) < 4; omega) S32x32 a3 rfl rfl 96 rfl (ix2 k j)
    (cols32_off k j 3) (by show 96 + j.val = 32 * 3 + j.val; omega)

/-! Four rows of 32 end to end, read at position 32g + j. -/
theorem rows32_0 (a0 a1 a2 a3 : Row 32) (j : Fin 32) :
    concatenate S128 0 [⟨S32, a0⟩, ⟨S32, a1⟩, ⟨S32, a2⟩, ⟨S32, a3⟩] concatenates_S32_S32_S32_S32_S128_d0 (ix1 (col 0 j)) = a0 (ix1 j) :=
  concatenate_apply_piece (0 : Fin S128.rank) [⟨S32, a0⟩, ⟨S32, a1⟩, ⟨S32, a2⟩, ⟨S32, a3⟩] concatenates_S32_S32_S32_S32_S128_d0 (ix1 (col 0 j)) 0 (by show (0 : Nat) < 4; omega) S32 a0 rfl rfl 0 rfl (ix1 j)
    (rows32_off j 0) (by show 0 + j.val = 32 * 0 + j.val; omega)
theorem rows32_1 (a0 a1 a2 a3 : Row 32) (j : Fin 32) :
    concatenate S128 0 [⟨S32, a0⟩, ⟨S32, a1⟩, ⟨S32, a2⟩, ⟨S32, a3⟩] concatenates_S32_S32_S32_S32_S128_d0 (ix1 (col 1 j)) = a1 (ix1 j) :=
  concatenate_apply_piece (0 : Fin S128.rank) [⟨S32, a0⟩, ⟨S32, a1⟩, ⟨S32, a2⟩, ⟨S32, a3⟩] concatenates_S32_S32_S32_S32_S128_d0 (ix1 (col 1 j)) 1 (by show (1 : Nat) < 4; omega) S32 a1 rfl rfl 32 rfl (ix1 j)
    (rows32_off j 1) (by show 32 + j.val = 32 * 1 + j.val; omega)
theorem rows32_2 (a0 a1 a2 a3 : Row 32) (j : Fin 32) :
    concatenate S128 0 [⟨S32, a0⟩, ⟨S32, a1⟩, ⟨S32, a2⟩, ⟨S32, a3⟩] concatenates_S32_S32_S32_S32_S128_d0 (ix1 (col 2 j)) = a2 (ix1 j) :=
  concatenate_apply_piece (0 : Fin S128.rank) [⟨S32, a0⟩, ⟨S32, a1⟩, ⟨S32, a2⟩, ⟨S32, a3⟩] concatenates_S32_S32_S32_S32_S128_d0 (ix1 (col 2 j)) 2 (by show (2 : Nat) < 4; omega) S32 a2 rfl rfl 64 rfl (ix1 j)
    (rows32_off j 2) (by show 64 + j.val = 32 * 2 + j.val; omega)
theorem rows32_3 (a0 a1 a2 a3 : Row 32) (j : Fin 32) :
    concatenate S128 0 [⟨S32, a0⟩, ⟨S32, a1⟩, ⟨S32, a2⟩, ⟨S32, a3⟩] concatenates_S32_S32_S32_S32_S128_d0 (ix1 (col 3 j)) = a3 (ix1 j) :=
  concatenate_apply_piece (0 : Fin S128.rank) [⟨S32, a0⟩, ⟨S32, a1⟩, ⟨S32, a2⟩, ⟨S32, a3⟩] concatenates_S32_S32_S32_S32_S128_d0 (ix1 (col 3 j)) 3 (by show (3 : Nat) < 4; omega) S32 a3 rfl rfl 96 rfl (ix1 j)
    (rows32_off j 3) (by show 96 + j.val = 32 * 3 + j.val; omega)

/-- The stacked x-weights, h-weights and bias row of four gates, as @main builds them. -/
def WX (gi gf gc go : Gate) : Mat 8 128 :=
  truncf (F := Ideal) .bf16 (concatenate S8x128 1 [⟨S8x32, gi.Wx⟩, ⟨S8x32, gf.Wx⟩, ⟨S8x32, gc.Wx⟩, ⟨S8x32, go.Wx⟩] concatenates_S8x32_S8x32_S8x32_S8x32_S8x128_d1) bitsLt_bf16_f32
def WH (gi gf gc go : Gate) : Mat 32 128 :=
  truncf (F := Ideal) .bf16 (concatenate S32x128 1 [⟨S32x32, gi.Wh⟩, ⟨S32x32, gf.Wh⟩, ⟨S32x32, gc.Wh⟩, ⟨S32x32, go.Wh⟩] concatenates_S32x32_S32x32_S32x32_S32x32_S32x128_d1) bitsLt_bf16_f32
def BB (gi gf gc go : Gate) : Row 128 :=
  concatenate S128 0 [⟨S32, addf (F := Ideal) (φ := .f32) (addf (F := Ideal) (φ := .f32) gi.bx gi.bh) gi.b⟩, ⟨S32, addf (F := Ideal) (φ := .f32) (addf (F := Ideal) (φ := .f32) gf.bx gf.bh) gf.b⟩,
    ⟨S32, addf (F := Ideal) (φ := .f32) (addf (F := Ideal) (φ := .f32) gc.bx gc.bh) gc.b⟩, ⟨S32, addf (F := Ideal) (φ := .f32) (addf (F := Ideal) (φ := .f32) go.bx go.bh) go.b⟩] concatenates_S32_S32_S32_S32_S128_d0

/-- They are the stacks of the four gates. -/
theorem stacked_gates (gi gf gc go : Gate) : Stacks (gates gi gf gc go) (WX gi gf gc go) (WH gi gf gc go) (BB gi gf gc go) where
  wx g k j := by
    unfold WX
    rw [truncf_apply]
    match g with
    | ⟨0, _⟩ => exact cols8_0 _ _ _ _ k j
    | ⟨1, _⟩ => exact cols8_1 _ _ _ _ k j
    | ⟨2, _⟩ => exact cols8_2 _ _ _ _ k j
    | ⟨3, _⟩ => exact cols8_3 _ _ _ _ k j
  wh g k j := by
    unfold WH
    rw [truncf_apply]
    match g with
    | ⟨0, _⟩ => exact cols32_0 _ _ _ _ k j
    | ⟨1, _⟩ => exact cols32_1 _ _ _ _ k j
    | ⟨2, _⟩ => exact cols32_2 _ _ _ _ k j
    | ⟨3, _⟩ => exact cols32_3 _ _ _ _ k j
  b g j := by
    unfold BB
    match g with
    | ⟨0, _⟩ => exact rows32_0 _ _ _ _ j
    | ⟨1, _⟩ => exact rows32_1 _ _ _ _ j
    | ⟨2, _⟩ => exact rows32_2 _ _ _ _ j
    | ⟨3, _⟩ => exact rows32_3 _ _ _ _ j

end Cert.KernelIdeal.Stacked

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.BodyCell.lean ====
/-
  What the tiled program's body stores, read at an entry.

  The body loads a block of 4000 rows of x, h and c, the stacked weights (8×128 and 32×128), the stacked bias row (128),
  the three peephole rows (32), the read-out matrix (32×9) and its bias row (9). At the ideal values a change of format is
  the identity and every operation is the extended reals' own, so entry (p, J) of the 4000×128 array of pre-activations is

      (Σ_k x p k · WX k J + Σ_k h p k · WH k J) + B J,

  which is the specification's "stackedPre" of rows p of x and h. Gate g reads columns 32g … 32g+31 of it, a peephole or
  bias row is first viewed as one row and then repeated over the 4000 rows, and the rest is entry by entry. So the three
  arrays the body stores are, at row p, the specification's sc0, sh0 and sy of rows p of x, h and c.
-/
import proofs.«181031_j70781061038141_2_alg».proof.Proof.Gen.KernelIdeal.Skeleton
import proofs.«181031_j70781061038141_2_alg».proof.Proof.Cell
import proofs.«181031_j70781061038141_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section
open scoped BigOperators

namespace Cert.KernelIdeal.BodyCell

open Cert.KernelIdeal Cert.KernelIdeal.Gen Cert.Cell Idealize.ShloMosaic Idealize.ShloMosaic.ValueIdx

/-! ## Entry-by-entry operations the library has no reading lemma for -/

/-- The logistic function of an array, at an entry. -/
theorem logistic_apply {s : Shape} {φ : FTy} (a : FVec Ideal s φ) (i : s.Idx) :
    Idealize.ShloMosaic.logistic a i = Ideal.logistic (a i) := rfl

/-- The hyperbolic tangent of an array, at an entry. -/
theorem tanh_apply {s : Shape} {φ : FTy} (a : FVec Ideal s φ) (i : s.Idx) :
    Idealize.ShloMosaic.tanh a i = Ideal.tanh (a i) := rfl

/-! ## A row repeated over all rows of a block -/

/-- A row of n entries, viewed as a 1×n array and repeated over a rows, reads at (p, c) the row's entry c. -/
theorem rowOver {a n : Nat} (v : (⟨1, ![n]⟩ : Shape).Idx → EReal)
    (hc : (⟨1, ![n]⟩ : Shape).ShapeCasts ⟨2, ![1, n]⟩) (hb : (⟨2, ![1, n]⟩ : Shape).Broadcasts ⟨2, ![a, n]⟩)
    (p : Fin a) (c : Fin n) :
    broadcastTo ⟨2, ![a, n]⟩ (shapeCast ⟨2, ![1, n]⟩ v hc) hb (ix2 p c) = v (ix1 c) :=
  (broadcastTo_1b_ab_apply (shapeCast ⟨2, ![1, n]⟩ v hc) hb p c).trans (shapeCast_a_1a_apply v hc 0 c)

/-! ## The two products into the 128 stacked columns -/

/-- Rows of x against the stacked x-weights. -/
theorem dotX (v0 : FVec Ideal S4000x8 .f32) (v5 : FVec Ideal S8x128 .bf16) (hlt : FTy.bits .bf16 < FTy.bits .f32)
    (hs : S8x128.ShapeCasts S8x128) (p : Fin 4000) (J : Fin 128) :
    matmul dot_S4000x8_S8x128_S4000x128_1_0_0_1_n_n none (truncf .bf16 v0 hlt) (shapeCast S8x128 v5 hs)
        (constant S4000x128 .f32 0x00000000#32) (ix2 p J)
      = ∑ k : Fin 8, v0 (ix2 p k) * v5 (ix2 k J) := by
  rw [shapeCast_self]
  exact Cert.PlainDot.matmul_zero_plain dot_S4000x8_S8x128_S4000x128_1_0_0_1_n_n ⟨rfl, rfl, rfl, rfl, rfl, rfl⟩ none
    (truncf .bf16 v0 hlt) v5 (ix2 p J)

/-- Rows of h against the stacked h-weights. -/
theorem dotH (v2 : FVec Ideal S4000x32 .f32) (v7 : FVec Ideal S32x128 .bf16) (hlt : FTy.bits .bf16 < FTy.bits .f32)
    (hs : S32x128.ShapeCasts S32x128) (p : Fin 4000) (J : Fin 128) :
    matmul dot_S4000x32_S32x128_S4000x128_1_0_0_1_n_n none (truncf .bf16 v2 hlt) (shapeCast S32x128 v7 hs)
        (constant S4000x128 .f32 0x00000000#32) (ix2 p J)
      = ∑ k : Fin 32, v2 (ix2 p k) * v7 (ix2 k J) := by
  rw [shapeCast_self]
  exact Cert.PlainDot.matmul_zero_plain dot_S4000x32_S32x128_S4000x128_1_0_0_1_n_n ⟨rfl, rfl, rfl, rfl, rfl, rfl⟩ none
    (truncf .bf16 v2 hlt) v7 (ix2 p J)

/-! ## The 128 stacked columns -/

/-- Entry (p, J) of the pre-activations is the stacked linear part of rows p of x and h at column J. -/
theorem pre_apply (v0 : Vec Ideal S4000x8 .f32) (v2 : Vec Ideal S4000x32 .f32) (v5 : Vec Ideal S8x128 .bf16)
    (v7 : Vec Ideal S32x128 .bf16) (v9 : Vec Ideal S128 .f32) (p : Fin 4000) (J : Fin 128) :
    k0_pay5 (F := Ideal) v0 v2 v5 v7 v9 (ix2 p J) = stackedPre v5 v7 v9 (row v0 p) (row v2 p) J := by
  unfold k0_pay5 stackedPre row
  simp only [addf_apply]
  rw [shapeCast_self v9, dotX, dotH, rowOver]

/-! ## Gate g reads columns 32g … 32g+31 -/

/-- The 32 columns from offset o = 32g of a 4000×128 array, at (p, j): the array at (p, 32g + j). -/
theorem slice_col (o : Nat) (g : Fin 4) (ho : o = 32 * g.val) (v : S4000x128.Idx → EReal)
    (h : S4000x128.Slices ![0, o] S4000x32) (p : Fin 4000) (j : Fin 32) :
    extractStridedSlice S4000x32 ![0, o] v h (ix2 p j) = v (ix2 p (col g j)) :=
  extractStridedSlice_apply ![0, o] v h (ix2 p j) (ix2 p (col g j)) fun a => by
    match a with
    | ⟨0, _⟩ => show p.val = 0 + p.val; omega
    | ⟨1, _⟩ => show 32 * g.val + j.val = o + j.val; omega

/-! ## The values the body keeps, at an entry -/

section Kept
variable (v0 : Vec Ideal S4000x8 .f32) (v2 v4 : Vec Ideal S4000x32 .f32) (v5 : Vec Ideal S8x128 .bf16)
  (v7 : Vec Ideal S32x128 .bf16) (v9 : Vec Ideal S128 .f32) (v11 v12 v13 : Vec Ideal S32 .f32) (p : Fin 4000) (j : Fin 32)

/-- The output gate's 32 columns. -/
theorem pay6_apply :
    k0_pay6 (F := Ideal) v0 v2 v5 v7 v9 (ix2 p j) = stackedPre v5 v7 v9 (row v0 p) (row v2 p) (col 3 j) := by
  unfold k0_pay6
  exact (slice_col 96 3 rfl _ _ p j).trans (pre_apply v0 v2 v5 v7 v9 p (col 3 j))

/-- The forget gate times the old cell state. -/
theorem pay7_apply :
    k0_pay7 (F := Ideal) v0 v2 v4 v5 v7 v9 v12 (ix2 p j)
      = Ideal.logistic (stackedPre v5 v7 v9 (row v0 p) (row v2 p) (col 1 j) + v12 (ix1 j) * v4 (ix2 p j)) * v4 (ix2 p j) := by
  unfold k0_pay7
  simp only [mulf_apply, addf_apply, logistic_apply]
  rw [slice_col 32 1 rfl, pre_apply, rowOver]

/-- The input gate times the candidate. -/
theorem pay8_apply :
    k0_pay8 (F := Ideal) v0 v2 v4 v5 v7 v9 v11 (ix2 p j)
      = Ideal.logistic (stackedPre v5 v7 v9 (row v0 p) (row v2 p) (col 0 j) + v11 (ix1 j) * v4 (ix2 p j))
          * Ideal.tanh (stackedPre v5 v7 v9 (row v0 p) (row v2 p) (col 2 j)) := by
  unfold k0_pay8
  simp only [mulf_apply, addf_apply, logistic_apply, tanh_apply]
  rw [slice_col 0 0 rfl, slice_col 64 2 rfl, pre_apply, pre_apply, rowOver]

end Kept

/-! ## The three stored arrays -/

/-- The new cell state. -/
theorem stored_c0 (v0 : Vec Ideal S4000x8 .f32) (v2 v4 : Vec Ideal S4000x32 .f32) (v5 : Vec Ideal S8x128 .bf16)
    (v7 : Vec Ideal S32x128 .bf16) (v9 : Vec Ideal S128 .f32) (v11 v12 : Vec Ideal S32 .f32) (p : Fin 4000) (j : Fin 32) :
    k0_pay1 (F := Ideal) (k0_pay7 v0 v2 v4 v5 v7 v9 v12) (k0_pay8 v0 v2 v4 v5 v7 v9 v11) (ix2 p j)
      = sc0 v5 v7 v9 v11 v12 (row v0 p) (row v2 p) (row v4 p) j := by
  unfold k0_pay1 sc0
  simp only [addf_apply]
  rw [pay7_apply, pay8_apply]
  rfl

/-- The new hidden state. -/
theorem stored_h0 (v0 : Vec Ideal S4000x8 .f32) (v2 v4 : Vec Ideal S4000x32 .f32) (v5 : Vec Ideal S8x128 .bf16)
    (v7 : Vec Ideal S32x128 .bf16) (v9 : Vec Ideal S128 .f32) (v11 v12 v13 : Vec Ideal S32 .f32) (p : Fin 4000) (j : Fin 32) :
    k0_pay2 (F := Ideal) v13 (k0_pay6 v0 v2 v5 v7 v9) (k0_pay7 v0 v2 v4 v5 v7 v9 v12) (k0_pay8 v0 v2 v4 v5 v7 v9 v11) (ix2 p j)
      = sh0 v5 v7 v9 v11 v12 v13 (row v0 p) (row v2 p) (row v4 p) j := by
  unfold k0_pay2 sh0
  simp only [mulf_apply, addf_apply, logistic_apply, tanh_apply]
  rw [rowOver, pay6_apply, stored_c0]

/-- The read-out. -/
theorem stored_y (v0 : Vec Ideal S4000x8 .f32) (v2 v4 : Vec Ideal S4000x32 .f32) (v5 : Vec Ideal S8x128 .bf16)
    (v7 : Vec Ideal S32x128 .bf16) (v9 : Vec Ideal S128 .f32) (v11 v12 v13 : Vec Ideal S32 .f32)
    (v14 : Vec Ideal S32x9 .bf16) (v16 : Vec Ideal S9 .f32) (p : Fin 4000) (q : Fin 9) :
    k0_pay3 (F := Ideal) v13 (k0_pay4 v14) v16 (k0_pay6 v0 v2 v5 v7 v9) (k0_pay7 v0 v2 v4 v5 v7 v9 v12)
        (k0_pay8 v0 v2 v4 v5 v7 v9 v11) (ix2 p q)
      = sy v5 v7 v9 v11 v12 v13 v14 v16 (Ideal.ofBits .f32 0x00000000#32) (row v0 p) (row v2 p) (row v4 p) q := by
  unfold k0_pay3 k0_pay4 sy
  simp only [addf_apply]
  rw [rowOver]
  refine congrArg (· + v16 (ix1 q)) ?_
  refine (Cert.PlainDot.matmul_zero_plain dot_S4000x32_S32x9_S4000x9_1_0_0_1_n_n ⟨rfl, rfl, rfl, rfl, rfl, rfl⟩ none
    _ _ (ix2 p q)).trans ?_
  refine Finset.sum_congr rfl fun k _ => ?_
  show max (k0_pay2 (F := Ideal) v13 (k0_pay6 v0 v2 v5 v7 v9) (k0_pay7 v0 v2 v4 v5 v7 v9 v12)
      (k0_pay8 v0 v2 v4 v5 v7 v9 v11) (ix2 p k)) (Ideal.ofBits .f32 0x00000000#32) * shapeCast S32x9 v14 _ (ix2 k q) = _
  rw [stored_h0, shapeCast_self]

end Cert.KernelIdeal.BodyCell

end
-- ==== Proof.TiledValue.lean ====
/-
  The three result arrays after the tiled program's run, as functions of the arguments.

  The grid is handed the stacked weights, which are the stacks of the four gates (what the fourteen host operations
  compute); tile `t` of x, h and c is rows 4000t … 4000t+3999 of the array; each of the eight small windows' tiles is its
  whole array. The value a point stores at row p of its tile is therefore the cell's tiled arrangement on row 4000t + p
  of x, h and c, which is the cell's plain arrangement there. The 250 tiles cover rows 0 … 999,999, so each result
  array ends as the cell's result over all nodes: `resC`, `resH`, `resY`.
-/
import proofs.«181031_j70781061038141_2_alg».proof.Proof.TiledIdeal
import proofs.«181031_j70781061038141_2_alg».proof.Proof.StackedWeights
import proofs.«181031_j70781061038141_2_alg».proof.Proof.BodyCell
import proofs.«181031_j70781061038141_2_alg».proof.Proof.Cell
import Idealize.ShloMosaic.Lib.Pipeline.Value
import Idealize.ShloMosaic.Lib.StableHlo.Run
import Idealize.ShloMosaic.Lib.ValueIdx

set_option maxRecDepth 16384

noncomputable section

namespace Cert.KernelIdeal.TiledValue

open Cert.KernelIdeal Cert.KernelIdeal.Gen Cert.KernelIdeal.Tiled Cert.KernelIdeal.Stacked Cert.KernelIdeal.BodyCell Cert.Cell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments, by role -/

/-- The four gates' weights on core `c`. -/
def gI (c : Dev nD) : Gate := ⟨(m ((c : Thread nD τ).loc main_arg5)), (m ((c : Thread nD τ).loc main_arg6)), (m ((c : Thread nD τ).loc main_arg7)), (m ((c : Thread nD τ).loc main_arg8)), (m ((c : Thread nD τ).loc main_arg9))⟩
def gF (c : Dev nD) : Gate := ⟨(m ((c : Thread nD τ).loc main_arg11)), (m ((c : Thread nD τ).loc main_arg12)), (m ((c : Thread nD τ).loc main_arg13)), (m ((c : Thread nD τ).loc main_arg14)), (m ((c : Thread nD τ).loc main_arg15))⟩
def gC (c : Dev nD) : Gate := ⟨(m ((c : Thread nD τ).loc main_arg17)), (m ((c : Thread nD τ).loc main_arg18)), (m ((c : Thread nD τ).loc main_arg19)), (m ((c : Thread nD τ).loc main_arg20)), (m ((c : Thread nD τ).loc main_arg21))⟩
def gO (c : Dev nD) : Gate := ⟨(m ((c : Thread nD τ).loc main_arg22)), (m ((c : Thread nD τ).loc main_arg23)), (m ((c : Thread nD τ).loc main_arg24)), (m ((c : Thread nD τ).loc main_arg25)), (m ((c : Thread nD τ).loc main_arg26))⟩

/-- The three results over all nodes. -/
def resC (c : Dev nD) : Mat 1000000 32 := C0 (gI m c) (gF m c) (gC m c) (m ((c : Thread nD τ).loc main_arg10)) (m ((c : Thread nD τ).loc main_arg16)) (m ((c : Thread nD τ).loc main_arg0)) (m ((c : Thread nD τ).loc main_arg3)) (m ((c : Thread nD τ).loc main_arg4))
def resH (c : Dev nD) : Mat 1000000 32 := H0 (gI m c) (gF m c) (gC m c) (gO m c) (m ((c : Thread nD τ).loc main_arg10)) (m ((c : Thread nD τ).loc main_arg16)) (m ((c : Thread nD τ).loc main_arg27)) (m ((c : Thread nD τ).loc main_arg0)) (m ((c : Thread nD τ).loc main_arg3)) (m ((c : Thread nD τ).loc main_arg4))
def resY (c : Dev nD) : Mat 1000000 9 :=
  Y (gI m c) (gF m c) (gC m c) (gO m c) (m ((c : Thread nD τ).loc main_arg10)) (m ((c : Thread nD τ).loc main_arg16)) (m ((c : Thread nD τ).loc main_arg27)) (m ((c : Thread nD τ).loc main_arg28)) (m ((c : Thread nD τ).loc main_arg29)) (Ideal.ofBits .f32 0x00000000#32) (m ((c : Thread nD τ).loc main_arg0)) (m ((c : Thread nD τ).loc main_arg3)) (m ((c : Thread nD τ).loc main_arg4))

/-! ## What the grid is handed: the host operations' results -/

theorem V_main_v9 (c : Dev nD) : (V m c main_v9 : S8x128.Idx → EReal) = WX (gI m c) (gF m c) (gC m c) (gO m c) := by
  dsimp only [V, hostOps0]; after_results; rfl
theorem V_main_v11 (c : Dev nD) : (V m c main_v11 : S32x128.Idx → EReal) = WH (gI m c) (gF m c) (gC m c) (gO m c) := by
  dsimp only [V, hostOps0]; after_results; rfl
theorem V_main_v12 (c : Dev nD) : (V m c main_v12 : S128.Idx → EReal) = BB (gI m c) (gF m c) (gC m c) (gO m c) := by
  dsimp only [V, hostOps0]; after_results; rfl
/-- Narrowing the read-out matrix to bf16 changes nothing here. -/
theorem V_main_v13 (c : Dev nD) : (V m c main_v13 : S32x9.Idx → EReal) = (m ((c : Thread nD τ).loc main_arg28)) := by
  dsimp only [V, hostOps0]; after_results; rfl

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- The row-tiled windows are at tile `t` of the rows and tile 0 of the columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The small windows stay at their one tile. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-- Row `p` of tile `t` is node 4000t + p. -/
def nodeOf (t : Fin cfg0.N) (p : Fin 4000) : Fin 1000000 :=
  ⟨4000 * t.val + p.val, by have h : t.val < 250 := N_0 ▸ t.isLt; have := p.isLt; omega⟩

/-! ## Each window's tile, read off its array -/

theorem tile0_row (c : Dev nD) (t : Fin cfg0.N) (p : Fin 4000) :
    row (iblk m c 0 t : Mat 4000 8) p = row ((m ((c : Thread nD τ).loc main_arg0)) : Mat 1000000 8) (nodeOf t p) := by
  funext k
  show iblk m c 0 t (ix2 p k) = (m ((c : Thread nD τ).loc main_arg0)) (ix2 (nodeOf t p) k)
  unfold iblk
  rw [View.read_apply]
  show V m c main_arg0 _ = _
  rw [V_main_arg0]
  refine congrArg _ ?_
  funext a
  apply Fin.ext
  have e := idx_rows t
  match a with
  | ⟨0, _⟩ => show win0_0.index t (0 : Fin 2) * 4000 + 1 * p.val = 4000 * t.val + p.val; rw [e.1]; omega
  | ⟨1, _⟩ => show win0_0.index t (1 : Fin 2) * 8 + 1 * k.val = k.val; rw [e.2.1]; omega

theorem tile1_row (c : Dev nD) (t : Fin cfg0.N) (p : Fin 4000) :
    row (iblk m c 1 t : Mat 4000 32) p = row ((m ((c : Thread nD τ).loc main_arg3)) : Mat 1000000 32) (nodeOf t p) := by
  funext k
  show iblk m c 1 t (ix2 p k) = (m ((c : Thread nD τ).loc main_arg3)) (ix2 (nodeOf t p) k)
  unfold iblk
  rw [View.read_apply]
  show V m c main_arg3 _ = _
  rw [V_main_arg3]
  refine congrArg _ ?_
  funext a
  apply Fin.ext
  have e := idx_rows t
  match a with
  | ⟨0, _⟩ => show win0_1.index t (0 : Fin 2) * 4000 + 1 * p.val = 4000 * t.val + p.val; rw [e.2.2.1]; omega
  | ⟨1, _⟩ => show win0_1.index t (1 : Fin 2) * 32 + 1 * k.val = k.val; rw [e.2.2.2.1]; omega

theorem tile2_row (c : Dev nD) (t : Fin cfg0.N) (p : Fin 4000) :
    row (iblk m c 2 t : Mat 4000 32) p = row ((m ((c : Thread nD τ).loc main_arg4)) : Mat 1000000 32) (nodeOf t p) := by
  funext k
  show iblk m c 2 t (ix2 p k) = (m ((c : Thread nD τ).loc main_arg4)) (ix2 (nodeOf t p) k)
  unfold iblk
  rw [View.read_apply]
  show V m c main_arg4 _ = _
  rw [V_main_arg4]
  refine congrArg _ ?_
  funext a
  apply Fin.ext
  have e := idx_rows t
  match a with
  | ⟨0, _⟩ => show win0_2.index t (0 : Fin 2) * 4000 + 1 * p.val = 4000 * t.val + p.val; rw [e.2.2.2.2.1]; omega
  | ⟨1, _⟩ => show win0_2.index t (1 : Fin 2) * 32 + 1 * k.val = k.val; rw [e.2.2.2.2.2.1]; omega

theorem tile3_eq (c : Dev nD) (t : Fin cfg0.N) : (iblk m c 3 t : Mat 8 128) = WX (gI m c) (gF m c) (gC m c) (gO m c) := by
  funext y
  unfold iblk
  rw [View.read_apply]
  show V m c main_v9 _ = _
  rw [V_main_v9]
  refine congrArg _ ?_
  funext a
  apply Fin.ext
  have e := idx_whole t
  match a with
  | ⟨0, _⟩ => show win0_3.index t (0 : Fin 2) * 8 + 1 * (y 0).val = (y 0).val; rw [e.1]; omega
  | ⟨1, _⟩ => show win0_3.index t (1 : Fin 2) * 128 + 1 * (y 1).val = (y 1).val; rw [e.2.1]; omega

theorem tile4_eq (c : Dev nD) (t : Fin cfg0.N) : (iblk m c 4 t : Mat 32 128) = WH (gI m c) (gF m c) (gC m c) (gO m c) := by
  funext y
  unfold iblk
  rw [View.read_apply]
  show V m c main_v11 _ = _
  rw [V_main_v11]
  refine congrArg _ ?_
  funext a
  apply Fin.ext
  have e := idx_whole t
  match a with
  | ⟨0, _⟩ => show win0_4.index t (0 : Fin 2) * 32 + 1 * (y 0).val = (y 0).val; rw [e.2.2.1]; omega
  | ⟨1, _⟩ => show win0_4.index t (1 : Fin 2) * 128 + 1 * (y 1).val = (y 1).val; rw [e.2.2.2.1]; omega

theorem tile5_eq (c : Dev nD) (t : Fin cfg0.N) : (iblk m c 5 t : Row 128) = BB (gI m c) (gF m c) (gC m c) (gO m c) := by
  funext y
  unfold iblk
  rw [View.read_apply]
  show V m c main_v12 _ = _
  rw [V_main_v12]
  refine congrArg _ ?_
  funext a
  apply Fin.ext
  have e := idx_whole t
  match a with
  | ⟨0, _⟩ => show win0_5.index t (0 : Fin 1) * 128 + 1 * (y 0).val = (y 0).val; rw [e.2.2.2.2.1]; omega

theorem tile6_eq (c : Dev nD) (t : Fin cfg0.N) : (iblk m c 6 t : Row 32) = (m ((c : Thread nD τ).loc main_arg10)) := by
  funext y
  unfold iblk
  rw [View.read_apply]
  show V m c main_arg10 _ = _
  rw [V_main_arg10]
  refine congrArg _ ?_
  funext a
  apply Fin.ext
  have e := idx_whole t
  match a with
  | ⟨0, _⟩ => show win0_6.index t (0 : Fin 1) * 32 + 1 * (y 0).val = (y 0).val; rw [e.2.2.2.2.2.1]; omega

theorem tile7_eq (c : Dev nD) (t : Fin cfg0.N) : (iblk m c 7 t : Row 32) = (m ((c : Thread nD τ).loc main_arg16)) := by
  funext y
  unfold iblk
  rw [View.read_apply]
  show V m c main_arg16 _ = _
  rw [V_main_arg16]
  refine congrArg _ ?_
  funext a
  apply Fin.ext
  have e := idx_whole t
  match a with
  | ⟨0, _⟩ => show win0_7.index t (0 : Fin 1) * 32 + 1 * (y 0).val = (y 0).val; rw [e.2.2.2.2.2.2.1]; omega

theorem tile8_eq (c : Dev nD) (t : Fin cfg0.N) : (iblk m c 8 t : Row 32) = (m ((c : Thread nD τ).loc main_arg27)) := by
  funext y
  unfold iblk
  rw [View.read_apply]
  show V m c main_arg27 _ = _
  rw [V_main_arg27]
  refine congrArg _ ?_
  funext a
  apply Fin.ext
  have e := idx_whole t
  match a with
  | ⟨0, _⟩ => show win0_8.index t (0 : Fin 1) * 32 + 1 * (y 0).val = (y 0).val; rw [e.2.2.2.2.2.2.2.1]; omega

theorem tile9_eq (c : Dev nD) (t : Fin cfg0.N) : (iblk m c 9 t : Mat 32 9) = (m ((c : Thread nD τ).loc main_arg28)) := by
  funext y
  unfold iblk
  rw [View.read_apply]
  show V m c main_v13 _ = _
  rw [V_main_v13]
  refine congrArg _ ?_
  funext a
  apply Fin.ext
  have e := idx_whole t
  match a with
  | ⟨0, _⟩ => show win0_9.index t (0 : Fin 2) * 32 + 1 * (y 0).val = (y 0).val; rw [e.2.2.2.2.2.2.2.2.1]; omega
  | ⟨1, _⟩ => show win0_9.index t (1 : Fin 2) * 9 + 1 * (y 1).val = (y 1).val; rw [e.2.2.2.2.2.2.2.2.2.1]; omega

theorem tile10_eq (c : Dev nD) (t : Fin cfg0.N) : (iblk m c 10 t : Row 9) = (m ((c : Thread nD τ).loc main_arg29)) := by
  funext y
  unfold iblk
  rw [View.read_apply]
  show V m c main_arg29 _ = _
  rw [V_main_arg29]
  refine congrArg _ ?_
  funext a
  apply Fin.ext
  have e := idx_whole t
  match a with
  | ⟨0, _⟩ => show win0_10.index t (0 : Fin 1) * 9 + 1 * (y 0).val = (y 0).val; rw [e.2.2.2.2.2.2.2.2.2.2]; omega

/-! ## The stored tiles at an entry, over any loaded values -/

theorem tileC_apply (x0 : Vec Ideal S4000x8 .f32) (x1 x2 : Vec Ideal S4000x32 .f32) (x3 : Vec Ideal S8x128 .bf16) (x4 : Vec Ideal S32x128 .bf16) (x5 : Vec Ideal S128 .f32) (x6 x7 x8 : Vec Ideal S32 .f32) (x9 : Vec Ideal S32x9 .bf16) (x10 : Vec Ideal S9 .f32) (p : Fin 4000) (j : Fin 32) :
    tileC (F := Ideal) x0 x1 x2 x3 x4 x5 x6 x7 x8 x9 x10 (ix2 p j) = sc0 x3 x4 x5 x6 x7 (row x0 p) (row x1 p) (row x2 p) j := by
  unfold tileC
  rw [View.canon_unit_zero hz2]
  simp only [View.ld_unit_zero (S := S4000x8) hz2, View.ld_unit_zero (S := S4000x32) hz2, View.ld_unit_zero (S := S8x128) hz2, View.ld_unit_zero (S := S32x128) hz2, View.ld_unit_zero (S := S128) hz1, View.ld_unit_zero (S := S32) hz1, View.ld_unit_zero (S := S32x9) hz2, View.ld_unit_zero (S := S9) hz1]
  exact stored_c0 x0 x1 x2 x3 x4 x5 x6 x7 p j

theorem tileH_apply (x0 : Vec Ideal S4000x8 .f32) (x1 x2 : Vec Ideal S4000x32 .f32) (x3 : Vec Ideal S8x128 .bf16) (x4 : Vec Ideal S32x128 .bf16) (x5 : Vec Ideal S128 .f32) (x6 x7 x8 : Vec Ideal S32 .f32) (x9 : Vec Ideal S32x9 .bf16) (x10 : Vec Ideal S9 .f32) (p : Fin 4000) (j : Fin 32) :
    tileH (F := Ideal) x0 x1 x2 x3 x4 x5 x6 x7 x8 x9 x10 (ix2 p j) = sh0 x3 x4 x5 x6 x7 x8 (row x0 p) (row x1 p) (row x2 p) j := by
  unfold tileH
  rw [View.canon_unit_zero hz2]
  simp only [View.ld_unit_zero (S := S4000x8) hz2, View.ld_unit_zero (S := S4000x32) hz2, View.ld_unit_zero (S := S8x128) hz2, View.ld_unit_zero (S := S32x128) hz2, View.ld_unit_zero (S := S128) hz1, View.ld_unit_zero (S := S32) hz1, View.ld_unit_zero (S := S32x9) hz2, View.ld_unit_zero (S := S9) hz1]
  exact stored_h0 x0 x1 x2 x3 x4 x5 x6 x7 x8 p j

theorem tileY_apply (x0 : Vec Ideal S4000x8 .f32) (x1 x2 : Vec Ideal S4000x32 .f32) (x3 : Vec Ideal S8x128 .bf16) (x4 : Vec Ideal S32x128 .bf16) (x5 : Vec Ideal S128 .f32) (x6 x7 x8 : Vec Ideal S32 .f32) (x9 : Vec Ideal S32x9 .bf16) (x10 : Vec Ideal S9 .f32) (p : Fin 4000) (q : Fin 9) :
    tileY (F := Ideal) x0 x1 x2 x3 x4 x5 x6 x7 x8 x9 x10 (ix2 p q) = sy x3 x4 x5 x6 x7 x8 x9 x10 (Ideal.ofBits .f32 0x00000000#32) (row x0 p) (row x1 p) (row x2 p) q := by
  unfold tileY
  rw [View.canon_unit_zero hz2]
  simp only [View.ld_unit_zero (S := S4000x8) hz2, View.ld_unit_zero (S := S4000x32) hz2, View.ld_unit_zero (S := S8x128) hz2, View.ld_unit_zero (S := S32x128) hz2, View.ld_unit_zero (S := S128) hz1, View.ld_unit_zero (S := S32) hz1, View.ld_unit_zero (S := S32x9) hz2, View.ld_unit_zero (S := S9) hz1]
  exact stored_y x0 x1 x2 x3 x4 x5 x6 x7 x8 x9 x10 p q

/-! ## What each point writes back -/

/-- What point `t` writes back into c0 is tile `t` of `resC`. -/
theorem flushed13_eq (c : Dev nD) (t : Fin cfg0.N) :
    (dats m 0 c).flushed 13 t = ((cfg0.win 13).blk t).view.read (Elt Ideal) (resC m c) := by
  show (cfg0.win 13).cut (grid0.coords t) ((dats m 0 c).after 13 t) = _
  rw [after13]
  funext y
  obtain ⟨p, j, rfl⟩ : ∃ (p : Fin 4000) (j : Fin 32), y = ix2 p j := ⟨y 0, y 1, eq_ix2 y⟩
  rw [View.read_apply]
  have he : ((cfg0.win 13).blk t).view.emb (ix2 p j) = (ix2 (nodeOf t p) j : S1000000x32.Idx) := by
    funext a
    apply Fin.ext
    have e := idx_rows t
    match a with
    | ⟨0, _⟩ => show win0_13.index t (0 : Fin 2) * 4000 + 1 * p.val = 4000 * t.val + p.val; rw [e.2.2.2.2.2.2.2.2.2.2.1]; omega
    | ⟨1, _⟩ => show win0_13.index t (1 : Fin 2) * 32 + 1 * j.val = j.val; rw [e.2.2.2.2.2.2.2.2.2.2.2]; omega
  rw [he]
  show tileC (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = _
  refine (tileC_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_
  rw [tile0_row, tile1_row, tile2_row, tile3_eq, tile4_eq, tile5_eq, tile6_eq, tile7_eq]
  rw [sc0_eq (stacked_gates (gI m c) (gF m c) (gC m c) (gO m c))]
  rfl

/-- What point `t` writes back into h0 is tile `t` of `resH`. -/
theorem flushed12_eq (c : Dev nD) (t : Fin cfg0.N) :
    (dats m 0 c).flushed 12 t = ((cfg0.win 12).blk t).view.read (Elt Ideal) (resH m c) := by
  show (cfg0.win 12).cut (grid0.coords t) ((dats m 0 c).after 12 t) = _
  rw [after12]
  funext y
  obtain ⟨p, j, rfl⟩ : ∃ (p : Fin 4000) (j : Fin 32), y = ix2 p j := ⟨y 0, y 1, eq_ix2 y⟩
  rw [View.read_apply]
  have he : ((cfg0.win 12).blk t).view.emb (ix2 p j) = (ix2 (nodeOf t p) j : S1000000x32.Idx) := by
    funext a
    apply Fin.ext
    have e := idx_rows t
    match a with
    | ⟨0, _⟩ => show win0_12.index t (0 : Fin 2) * 4000 + 1 * p.val = 4000 * t.val + p.val; rw [e.2.2.2.2.2.2.2.2.1]; omega
    | ⟨1, _⟩ => show win0_12.index t (1 : Fin 2) * 32 + 1 * j.val = j.val; rw [e.2.2.2.2.2.2.2.2.2.1]; omega
  rw [he]
  show tileH (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = _
  refine (tileH_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_
  rw [tile0_row, tile1_row, tile2_row, tile3_eq, tile4_eq, tile5_eq, tile6_eq, tile7_eq, tile8_eq]
  rw [sh0_eq (stacked_gates (gI m c) (gF m c) (gC m c) (gO m c))]
  rfl

/-- What point `t` writes back into y is tile `t` of `resY`. -/
theorem flushed11_eq (c : Dev nD) (t : Fin cfg0.N) :
    (dats m 0 c).flushed 11 t = ((cfg0.win 11).blk t).view.read (Elt Ideal) (resY m c) := by
  show (cfg0.win 11).cut (grid0.coords t) ((dats m 0 c).after 11 t) = _
  rw [after11]
  funext y
  obtain ⟨p, q, rfl⟩ : ∃ (p : Fin 4000) (q : Fin 9), y = ix2 p q := ⟨y 0, y 1, eq_ix2 y⟩
  rw [View.read_apply]
  have he : ((cfg0.win 11).blk t).view.emb (ix2 p q) = (ix2 (nodeOf t p) q : S1000000x9.Idx) := by
    funext a
    apply Fin.ext
    have e := idx_rows t
    match a with
    | ⟨0, _⟩ => show win0_11.index t (0 : Fin 2) * 4000 + 1 * p.val = 4000 * t.val + p.val; rw [e.2.2.2.2.2.2.1]; omega
    | ⟨1, _⟩ => show win0_11.index t (1 : Fin 2) * 9 + 1 * q.val = q.val; rw [e.2.2.2.2.2.2.2.1]; omega
  rw [he]
  show tileY (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q) = _
  refine (tileY_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [tile0_row, tile1_row, tile2_row, tile3_eq, tile4_eq, tile5_eq, tile6_eq, tile7_eq, tile8_eq, tile9_eq, tile10_eq]
  rw [sy_eq (stacked_gates (gI m c) (gF m c) (gC m c) (gO m c))]
  rfl

/-! ## The tiles cover the arrays -/

theorem mem_blk13 (t : Fin cfg0.N) (i : S1000000x32.Idx) :
    i ∈ ((cfg0.win 13).blk t).view.set ↔ ∀ a : Fin 2, win0_13.index t a * S4000x32.size a ≤ (i a).val ∧ (i a).val < win0_13.index t a * S4000x32.size a + S4000x32.size a := by
  show i ∈ ((View.whole main_v14_2).slice (win0_13.rect t)).set ↔ _
  rw [View.set_slice_whole, Rect.mem_set_unit]
  exact Iff.rfl
theorem mem_blk12 (t : Fin cfg0.N) (i : S1000000x32.Idx) :
    i ∈ ((cfg0.win 12).blk t).view.set ↔ ∀ a : Fin 2, win0_12.index t a * S4000x32.size a ≤ (i a).val ∧ (i a).val < win0_12.index t a * S4000x32.size a + S4000x32.size a := by
  show i ∈ ((View.whole main_v14_1).slice (win0_12.rect t)).set ↔ _
  rw [View.set_slice_whole, Rect.mem_set_unit]
  exact Iff.rfl
theorem mem_blk11 (t : Fin cfg0.N) (i : S1000000x9.Idx) :
    i ∈ ((cfg0.win 11).blk t).view.set ↔ ∀ a : Fin 2, win0_11.index t a * S4000x9.size a ≤ (i a).val ∧ (i a).val < win0_11.index t a * S4000x9.size a + S4000x9.size a := by
  show i ∈ ((View.whole main_v14_0).slice (win0_11.rect t)).set ↔ _
  rw [View.set_slice_whole, Rect.mem_set_unit]
  exact Iff.rfl

/-- The tile that holds row r is tile r / 4000. -/
def tileOf (r : Nat) (hr : r < 1000000) : Fin cfg0.N := ⟨r / 4000, by rw [show cfg0.N = 250 from N_0]; omega⟩

theorem cover13 (i : S1000000x32.Idx) : ∃ t : Fin cfg0.N, (cfg0.win 13).flush t = true ∧ i ∈ ((cfg0.win 13).blk t).view.set := by
  have hi0 : (i 0).val < 1000000 := (i 0).isLt
  have hi1 : (i 1).val < 32 := (i 1).isLt
  refine ⟨tileOf (i 0).val hi0, flush0_13 _, ?_⟩
  rw [mem_blk13]
  have e := idx_rows (tileOf (i 0).val hi0)
  have ht : (tileOf (i 0).val hi0).val = (i 0).val / 4000 := rfl
  intro a
  match a with
  | ⟨0, _⟩ => show win0_13.index (tileOf (i 0).val hi0) (0 : Fin 2) * 4000 ≤ (i 0).val ∧ (i 0).val < win0_13.index (tileOf (i 0).val hi0) (0 : Fin 2) * 4000 + 4000; rw [e.2.2.2.2.2.2.2.2.2.2.1, ht]; omega
  | ⟨1, _⟩ => show win0_13.index (tileOf (i 0).val hi0) (1 : Fin 2) * 32 ≤ (i 1).val ∧ (i 1).val < win0_13.index (tileOf (i 0).val hi0) (1 : Fin 2) * 32 + 32; rw [e.2.2.2.2.2.2.2.2.2.2.2]; omega
theorem cover12 (i : S1000000x32.Idx) : ∃ t : Fin cfg0.N, (cfg0.win 12).flush t = true ∧ i ∈ ((cfg0.win 12).blk t).view.set := by
  have hi0 : (i 0).val < 1000000 := (i 0).isLt
  have hi1 : (i 1).val < 32 := (i 1).isLt
  refine ⟨tileOf (i 0).val hi0, flush0_12 _, ?_⟩
  rw [mem_blk12]
  have e := idx_rows (tileOf (i 0).val hi0)
  have ht : (tileOf (i 0).val hi0).val = (i 0).val / 4000 := rfl
  intro a
  match a with
  | ⟨0, _⟩ => show win0_12.index (tileOf (i 0).val hi0) (0 : Fin 2) * 4000 ≤ (i 0).val ∧ (i 0).val < win0_12.index (tileOf (i 0).val hi0) (0 : Fin 2) * 4000 + 4000; rw [e.2.2.2.2.2.2.2.2.1, ht]; omega
  | ⟨1, _⟩ => show win0_12.index (tileOf (i 0).val hi0) (1 : Fin 2) * 32 ≤ (i 1).val ∧ (i 1).val < win0_12.index (tileOf (i 0).val hi0) (1 : Fin 2) * 32 + 32; rw [e.2.2.2.2.2.2.2.2.2.1]; omega
theorem cover11 (i : S1000000x9.Idx) : ∃ t : Fin cfg0.N, (cfg0.win 11).flush t = true ∧ i ∈ ((cfg0.win 11).blk t).view.set := by
  have hi0 : (i 0).val < 1000000 := (i 0).isLt
  have hi1 : (i 1).val < 9 := (i 1).isLt
  refine ⟨tileOf (i 0).val hi0, flush0_11 _, ?_⟩
  rw [mem_blk11]
  have e := idx_rows (tileOf (i 0).val hi0)
  have ht : (tileOf (i 0).val hi0).val = (i 0).val / 4000 := rfl
  intro a
  match a with
  | ⟨0, _⟩ => show win0_11.index (tileOf (i 0).val hi0) (0 : Fin 2) * 4000 ≤ (i 0).val ∧ (i 0).val < win0_11.index (tileOf (i 0).val hi0) (0 : Fin 2) * 4000 + 4000; rw [e.2.2.2.2.2.2.1, ht]; omega
  | ⟨1, _⟩ => show win0_11.index (tileOf (i 0).val hi0) (1 : Fin 2) * 9 ≤ (i 1).val ∧ (i 1).val < win0_11.index (tileOf (i 0).val hi0) (1 : Fin 2) * 9 + 9; rw [e.2.2.2.2.2.2.2.1]; omega

/-! ## The arrays after the run -/

theorem finalC (c : Dev nD) : (dats m 0 c).arrAt 13 cfg0.N = resC m c :=
  (dats m 0 c).arrAt_eq_of_cover 13 (resC m c) (fun t _ => flushed13_eq m c t) cover13
theorem finalH (c : Dev nD) : (dats m 0 c).arrAt 12 cfg0.N = resH m c :=
  (dats m 0 c).arrAt_eq_of_cover 12 (resH m c) (fun t _ => flushed12_eq m c t) cover12
theorem finalY (c : Dev nD) : (dats m 0 c).arrAt 11 cfg0.N = resY m c :=
  (dats m 0 c).arrAt_eq_of_cover 11 (resY m c) (fun t _ => flushed11_eq m c t) cover11

/-- Every weakly fair execution of the tiled program terminates with y, h0 and c0 at the cell's results over all nodes
    and the thirty arguments unchanged. -/
theorem run : θ_run defs (onTc (τ := τ) (main (F := Ideal))) ⟨m, fun _ => 0, ρ⟩ fun r => ∀ c : Dev nD,
      r.2.mem ((c.tc : Thread nD τ).loc main_v14_0) = resY m c
      ∧ r.2.mem ((c.tc : Thread nD τ).loc main_v14_1) = resH m c
      ∧ r.2.mem ((c.tc : Thread nD τ).loc main_v14_2) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun r h c => ⟨((h c).1 11).trans (finalY m c), ((h c).1 12).trans (finalH m c), ((h c).1 13).trans (finalC m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats m 0 c).arrAt_in 6 rfl _).trans ((A_eq m c 6).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 7).trans (((dats m 0 c).arrAt_in 7 rfl _).trans ((A_eq m c 7).trans (V_main_arg16 m c))),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).1 8).trans (((dats m 0 c).arrAt_in 8 rfl _).trans ((A_eq m c 8).trans (V_main_arg27 m c))),
      ((h c).2 main_arg28 (Pipeline.mem_restRefs_of main_arg28 (by decide) (by decide))).trans (V_main_arg28 m c),
      ((h c).1 10).trans (((dats m 0 c).arrAt_in 10 rfl _).trans ((A_eq m c 10).trans (V_main_arg29 m c)))⟩)
    (run_main m ρ)

end Cert.KernelIdeal.TiledValue

end
-- ==== Proof.RefCell.lean ====
/-
  The plain program, read at one node and one column, is the cell of Cell.lean.

  Every operation of the plain program acts on whole arrays of 1,000,000 rows. Read at row n and column j, a matrix product
  x · W is the sum over k of x[n,k] · W[k,j], a bias row broadcast over the rows is its entry j, and every other
  operation acts entry by entry. So the argument of each gate's σ at (n, j) is the gate's linear part of rows n of x and h,
  plus the peephole row's entry j times the cell entry, plus the last bias; 1 / (1 + exp (−z)) with the constant 1.0 is σ z;
  and the three results are, entry by entry, Cell.c0, Cell.h0 and Cell.y of rows n of x, h and c.

  The four gates are written with the same operations in the same order, on different weights; the gates f and o are
  the text of gate i with other arguments (for o the peephole multiplies the new cell state instead of the old one), and
  gate c's linear part is the text of gate i's. The lemmas are therefore proved once, for gate i's text, with the
  multiplied cell array a variable.
-/
import proofs.«181031_j70781061038141_2_alg».proof.Proof.Gen.ReferenceIdeal.Read
import proofs.«181031_j70781061038141_2_alg».proof.Proof.Cell
import Idealize.ShloMosaic.Lib.ValueIdx
import Idealize.ShloMosaic.PureOps.Ideal

noncomputable section

namespace Cert.ReferenceIdeal.RefCell

open Idealize.ShloMosaic Idealize.ShloMosaic.ValueIdx Cert.Cell Cert.ReferenceIdeal.Read

/-- The f32 word 0x3F800000 is 1.0: sign 0, exponent 127 (the bias), significand 0. -/
theorem ofBits_one : Ideal.ofBits .f32 0x3F800000#32 = 1 := by
  simp [Ideal.ofBits, Ideal.ieee, -EReal.coe_mul]; norm_num

/-! ## The building blocks at row n, column j -/

/-- A row of 32 broadcast over all nodes: entry j, whatever the node. -/
theorem bias_at (b : Row 32) (n : Fin 1000000) (j : Fin 32) :
    val_main_v2 (F := Ideal) b (ix2 n j) = b (ix1 j) := by
  rw [val_main_v2_apply, val_main_v1_apply]
  exact congrArg b (funext fun a => Fin.ext (by match a with | ⟨0, _⟩ => rfl))

/-- x · W at (n, j): row n of x against column j of W. -/
theorem dot8_at (x : Mat 1000000 8) (W : Mat 8 32) (n : Fin 1000000) (j : Fin 32) :
    val_main_v0 (F := Ideal) x W (ix2 n j) = ∑ k : Fin 8, row x n k * W (ix2 k j) := by
  rw [val_main_v0_apply]
  refine Finset.sum_congr rfl fun k _ => ?_
  have el : lidx_main_v0 (ix2 n j) k = ix2 n k :=
    funext fun a => Fin.ext (by match a with | ⟨0, _⟩ => rfl | ⟨1, _⟩ => rfl)
  have er : ridx_main_v0 (ix2 n j) k = ix2 k j :=
    funext fun a => Fin.ext (by match a with | ⟨0, _⟩ => rfl | ⟨1, _⟩ => rfl)
  rw [el, er]; rfl

/-- h · W at (n, j): row n of h against column j of W. -/
theorem dot32_at (h : Mat 1000000 32) (W : Mat 32 32) (n : Fin 1000000) (j : Fin 32) :
    val_main_v4 (F := Ideal) h W (ix2 n j) = ∑ k : Fin 32, row h n k * W (ix2 k j) := by
  rw [val_main_v4_apply]
  refine Finset.sum_congr rfl fun k _ => ?_
  have el : lidx_main_v4 (ix2 n j) k = ix2 n k :=
    funext fun a => Fin.ext (by match a with | ⟨0, _⟩ => rfl | ⟨1, _⟩ => rfl)
  have er : ridx_main_v4 (ix2 n j) k = ix2 k j :=
    funext fun a => Fin.ext (by match a with | ⟨0, _⟩ => rfl | ⟨1, _⟩ => rfl)
  rw [el, er]; rfl

/-! ## One gate -/

/-- A gate's linear part at (n, j): ((x·Wx + bx) + h·Wh) + bh, the sums over rows n of x and h. The gate's last bias
    takes no part in it. -/
theorem lin_at (x0 : Mat 1000000 8) (x3 : Mat 1000000 32) (x5 : Mat 8 32) (x6 : Row 32) (x7 : Mat 32 32) (x8 b : Row 32)
    (n : Fin 1000000) (j : Fin 32) :
    val_main_v8 (F := Ideal) x0 x3 x5 x6 x7 x8 (ix2 n j) = Gate.lin ⟨x5, x6, x7, x8, b⟩ (row x0 n) (row x3 n) j := by
  rw [val_main_v8_apply, val_main_v5_apply, val_main_v3_apply, dot8_at, dot32_at, bias_at,
    show val_main_v7 (F := Ideal) x8 (ix2 n j) = x8 (ix1 j) from bias_at x8 n j]
  rfl

/-- The argument of a peephole gate's σ at (n, j): the linear part, plus the peephole row's entry j times the entry (n, j)
    of the array `cell` it multiplies, plus the last bias. -/
theorem pre_at (x0 : Mat 1000000 8) (x3 cell : Mat 1000000 32) (x5 : Mat 8 32) (x6 : Row 32) (x7 : Mat 32 32)
    (x8 x9 x10 : Row 32) (n : Fin 1000000) (j : Fin 32) :
    val_main_v15 (F := Ideal) x0 x3 cell x5 x6 x7 x8 x9 x10 (ix2 n j)
      = (Gate.lin ⟨x5, x6, x7, x8, x9⟩ (row x0 n) (row x3 n) j + x10 (ix1 j) * cell (ix2 n j)) + x9 (ix1 j) := by
  rw [val_main_v15_apply, val_main_v12_apply, val_main_v11_apply, lin_at x0 x3 x5 x6 x7 x8 x9,
    show val_main_v10 (F := Ideal) x10 (ix2 n j) = x10 (ix1 j) from bias_at x10 n j,
    show val_main_v14 (F := Ideal) x9 (ix2 n j) = x9 (ix1 j) from bias_at x9 n j]
  rfl

/-- 1.0 / (1.0 + exp (−z)) is σ z, entry by entry. -/
theorem sigma_at (x0 : Mat 1000000 8) (x3 cell : Mat 1000000 32) (x5 : Mat 8 32) (x6 : Row 32) (x7 : Mat 32 32)
    (x8 x9 x10 : Row 32) (i : (⟨2, ![1000000, 32]⟩ : Shape).Idx) :
    val_main_v21 (F := Ideal) x0 x3 cell x5 x6 x7 x8 x9 x10 i
      = Ideal.logistic (val_main_v15 (F := Ideal) x0 x3 cell x5 x6 x7 x8 x9 x10 i) := by
  rw [val_main_v21_apply, val_main_v20_apply, val_main_cst_0_apply, val_main_v19_apply, val_main_v18_apply,
    val_main_cst_apply, val_main_v17_apply, val_main_v16_apply, Ideal.ofBits_def, ofBits_one]
  rfl

/-- A peephole gate at (n, j). -/
theorem gate_at (x0 : Mat 1000000 8) (x3 cell : Mat 1000000 32) (x5 : Mat 8 32) (x6 : Row 32) (x7 : Mat 32 32)
    (x8 x9 x10 : Row 32) (n : Fin 1000000) (j : Fin 32) :
    val_main_v21 (F := Ideal) x0 x3 cell x5 x6 x7 x8 x9 x10 (ix2 n j)
      = Gate.peep ⟨x5, x6, x7, x8, x9⟩ x10 (row x0 n) (row x3 n) (cell (ix2 n j)) j := by
  rw [sigma_at, pre_at]
  rfl

/-- The candidate at (n, j): tanh of gate c's linear part plus its last bias. Gate c's linear part is written as gate i's. -/
theorem cand_at (x0 : Mat 1000000 8) (x3 : Mat 1000000 32) (x17 : Mat 8 32) (x18 : Row 32) (x19 : Mat 32 32) (x20 x21 : Row 32)
    (n : Fin 1000000) (j : Fin 32) :
    val_main_v56 (F := Ideal) x0 x3 x17 x18 x19 x20 x21 (ix2 n j)
      = Ideal.tanh (Gate.lin ⟨x17, x18, x19, x20, x21⟩ (row x0 n) (row x3 n) j + x21 (ix1 j)) := by
  rw [val_main_v56_apply, val_main_v55_apply,
    show val_main_v52 (F := Ideal) x0 x3 x17 x18 x19 x20 (ix2 n j) = _ from lin_at x0 x3 x17 x18 x19 x20 x21 n j,
    show val_main_v54 (F := Ideal) x21 (ix2 n j) = x21 (ix1 j) from bias_at x21 n j]
  rfl

/-! ## The three results at one entry -/

/-- The new cell state at (n, j). Gate f is gate i's text on gate f's weights. -/
theorem c0_at (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32)
    (n : Fin 1000000) (j : Fin 32) :
    val_main_v59 (F := Ideal) x0 x3 x4 x5 x6 x7 x8 x9 x10 x11 x12 x13 x14 x15 x16 x17 x18 x19 x20 x21 (ix2 n j)
      = Cell.c0 ⟨x5, x6, x7, x8, x9⟩ ⟨x11, x12, x13, x14, x15⟩ ⟨x17, x18, x19, x20, x21⟩ x10 x16 (row x0 n) (row x3 n) (row x4 n) j := by
  rw [val_main_v59_apply, val_main_v57_apply, val_main_v58_apply,
    show val_main_v43 (F := Ideal) x0 x3 x4 x11 x12 x13 x14 x15 x16 (ix2 n j) = _ from
      gate_at x0 x3 x4 x11 x12 x13 x14 x15 x16 n j,
    gate_at, cand_at]
  rfl

/-- The new hidden state at (n, j). Gate o is gate i's text on gate o's weights, its peephole row multiplying the new cell
    state. -/
theorem h0_at (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32)
    (x22 : Mat 8 32) (x23 : Row 32) (x24 : Mat 32 32) (x25 x26 x27 : Row 32)
    (n : Fin 1000000) (j : Fin 32) :
    val_main_v83 (F := Ideal) x0 x3 x4 x5 x6 x7 x8 x9 x10 x11 x12 x13 x14 x15 x16 x17 x18 x19 x20 x21 x22 x23 x24 x25 x26 x27 (ix2 n j)
      = Cell.h0 ⟨x5, x6, x7, x8, x9⟩ ⟨x11, x12, x13, x14, x15⟩ ⟨x17, x18, x19, x20, x21⟩ ⟨x22, x23, x24, x25, x26⟩ x10 x16 x27 (row x0 n) (row x3 n) (row x4 n) j := by
  rw [val_main_v83_apply, val_main_v82_apply,
    show val_main_v81 (F := Ideal) x0 x3 x4 x5 x6 x7 x8 x9 x10 x11 x12 x13 x14 x15 x16 x17 x18 x19 x20 x21 x22 x23 x24 x25 x26 x27 (ix2 n j) = _ from
      gate_at x0 x3 (val_main_v59 (F := Ideal) x0 x3 x4 x5 x6 x7 x8 x9 x10 x11 x12 x13 x14 x15 x16 x17 x18 x19 x20 x21) x22 x23 x24 x25 x26 x27 n j,
    c0_at]
  rfl

/-- The read-out at (n, q): the hidden row n, rectified against the zero word, through Wl, plus bl. -/
theorem y_at (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32)
    (x22 : Mat 8 32) (x23 : Row 32) (x24 : Mat 32 32) (x25 x26 x27 : Row 32) (x28 : Mat 32 9) (x29 : Row 9)
    (n : Fin 1000000) (q : Fin 9) :
    val_main_v88 (F := Ideal) x0 x3 x4 x5 x6 x7 x8 x9 x10 x11 x12 x13 x14 x15 x16 x17 x18 x19 x20 x21 x22 x23 x24 x25 x26 x27 x28 x29 (ix2 n q)
      = Cell.y ⟨x5, x6, x7, x8, x9⟩ ⟨x11, x12, x13, x14, x15⟩ ⟨x17, x18, x19, x20, x21⟩ ⟨x22, x23, x24, x25, x26⟩ x10 x16 x27 x28 x29 (Ideal.ofBits .f32 0x00000000#32)
          (row x0 n) (row x3 n) (row x4 n) q := by
  have hb : idx_main_v86 (idx_main_v87 (ix2 n q)) = ix1 q :=
    funext fun a => Fin.ext (by match a with | ⟨0, _⟩ => rfl)
  rw [val_main_v88_apply, val_main_v85_apply, val_main_v87_apply, val_main_v86_apply, hb, Ideal.addf_def]
  unfold Cell.y
  refine congrArg (fun s => s + x29 (ix1 q)) (Finset.sum_congr rfl fun k _ => ?_)
  have el : lidx_main_v85 (ix2 n q) k = ix2 n k :=
    funext fun a => Fin.ext (by match a with | ⟨0, _⟩ => rfl | ⟨1, _⟩ => rfl)
  have er : ridx_main_v85 (ix2 n q) k = ix2 k q :=
    funext fun a => Fin.ext (by match a with | ⟨0, _⟩ => rfl | ⟨1, _⟩ => rfl)
  rw [el, er, val_main_v84_apply, val_main_call0_v0_apply, val_main_call0_cst_apply, h0_at]
  rfl

/-! ## The three results over all nodes -/

theorem ref_c0 (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32) :
    Cert.ReferenceIdeal.Read.val_main_v59 (F := Ideal) x0 x3 x4 x5 x6 x7 x8 x9 x10 x11 x12 x13 x14 x15 x16 x17 x18 x19 x20 x21
      = Cell.C0 ⟨x5, x6, x7, x8, x9⟩ ⟨x11, x12, x13, x14, x15⟩ ⟨x17, x18, x19, x20, x21⟩ x10 x16 x0 x3 x4 := by
  funext i
  obtain ⟨n, j, rfl⟩ : ∃ (n : Fin 1000000) (j : Fin 32), i = ix2 n j := ⟨i 0, i 1, eq_ix2 i⟩
  exact c0_at x0 x3 x4 x5 x6 x7 x8 x9 x10 x11 x12 x13 x14 x15 x16 x17 x18 x19 x20 x21 n j

theorem ref_h0 (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32)
    (x22 : Mat 8 32) (x23 : Row 32) (x24 : Mat 32 32) (x25 x26 x27 : Row 32) :
    Cert.ReferenceIdeal.Read.val_main_v83 (F := Ideal) x0 x3 x4 x5 x6 x7 x8 x9 x10 x11 x12 x13 x14 x15 x16 x17 x18 x19 x20 x21 x22 x23 x24 x25 x26 x27
      = Cell.H0 ⟨x5, x6, x7, x8, x9⟩ ⟨x11, x12, x13, x14, x15⟩ ⟨x17, x18, x19, x20, x21⟩ ⟨x22, x23, x24, x25, x26⟩ x10 x16 x27 x0 x3 x4 := by
  funext i
  obtain ⟨n, j, rfl⟩ : ∃ (n : Fin 1000000) (j : Fin 32), i = ix2 n j := ⟨i 0, i 1, eq_ix2 i⟩
  exact h0_at x0 x3 x4 x5 x6 x7 x8 x9 x10 x11 x12 x13 x14 x15 x16 x17 x18 x19 x20 x21 x22 x23 x24 x25 x26 x27 n j

theorem ref_y (x0 : Mat 1000000 8) (x3 x4 : Mat 1000000 32) (x5 : Mat 8 32) (x6 : Row 32) (x7 : Mat 32 32) (x8 x9 x10 : Row 32)
    (x11 : Mat 8 32) (x12 : Row 32) (x13 : Mat 32 32) (x14 x15 x16 : Row 32) (x17 : Mat 8 32) (x18 : Row 32) (x19 : Mat 32 32) (x20 x21 : Row 32)
    (x22 : Mat 8 32) (x23 : Row 32) (x24 : Mat 32 32) (x25 x26 x27 : Row 32) (x28 : Mat 32 9) (x29 : Row 9) :
    Cert.ReferenceIdeal.Read.val_main_v88 (F := Ideal) x0 x3 x4 x5 x6 x7 x8 x9 x10 x11 x12 x13 x14 x15 x16 x17 x18 x19 x20 x21 x22 x23 x24 x25 x26 x27 x28 x29
      = Cell.Y ⟨x5, x6, x7, x8, x9⟩ ⟨x11, x12, x13, x14, x15⟩ ⟨x17, x18, x19, x20, x21⟩ ⟨x22, x23, x24, x25, x26⟩ x10 x16 x27 x28 x29 (Ideal.ofBits .f32 0x00000000#32) x0 x3 x4 := by
  funext i
  obtain ⟨n, q, rfl⟩ : ∃ (n : Fin 1000000) (q : Fin 9), i = ix2 n q := ⟨i 0, i 1, eq_ix2 i⟩
  exact y_at x0 x3 x4 x5 x6 x7 x8 x9 x10 x11 x12 x13 x14 x15 x16 x17 x18 x19 x20 x21 x22 x23 x24 x25 x26 x27 x28 x29 n q

end Cert.ReferenceIdeal.RefCell

end
-- ==== Proof.lean ====
/-
  One step of a graph-convolutional LSTM cell on 1,000,000 nodes, tiled in 250 grid points of 4000 rows, against the
  plain program.

  Both programs compute, for every node, the cell of Proof/Cell.lean: four gates' linear parts of the node's input
  and hidden rows, peephole terms on the cell row, logistic and tanh, the new cell and hidden rows, and a rectified
  read-out. The tiled program stacks the gates' weights and sums each gate's three bias rows before its grid, rounds
  its matrix-product operands to bf16 (the identity at the exact instance) and spells the logistic function as one
  operation; the plain program adds the bias rows one at a time around the two products and spells the logistic
  function as 1 / (1 + e^(-z)). On the extended reals the two differ by the bracketing of sums only, so the results
  are equal with no use of the inputs' finiteness.

  The frames of the two tiled programs are Proof/TiledWords.lean and Proof/TiledIdeal.lean; what the tiled program's
  result arrays hold is Proof/TiledValue.lean (over Proof/BodyCell.lean and Proof/StackedWeights.lean); the plain
  program's results are Proof/RefCell.lean over its generated run. The idealization rewrote nothing, so `preserves` is
  trivial.
-/
import proofs.«181031_j70781061038141_2_alg».proof.Defs
import proofs.«181031_j70781061038141_2_alg».proof.Proof.Gen.Kernel
import proofs.«181031_j70781061038141_2_alg».proof.Proof.Gen.KernelIdeal
import proofs.«181031_j70781061038141_2_alg».proof.Proof.Gen.ReferenceIdeal
import proofs.«181031_j70781061038141_2_alg».proof.Proof.Gen.ReferenceIdeal.Run
import proofs.«181031_j70781061038141_2_alg».proof.Proof.Gen.ReferenceIdeal.Read
import proofs.«181031_j70781061038141_2_alg».proof.Proof.Gen.Pre_finite_inputs
import proofs.«181031_j70781061038141_2_alg».proof.Proof.TiledWords
import proofs.«181031_j70781061038141_2_alg».proof.Proof.TiledIdeal
import proofs.«181031_j70781061038141_2_alg».proof.Proof.TiledValue
import proofs.«181031_j70781061038141_2_alg».proof.Proof.RefCell
import Idealize.ShloMosaic.Adequacy
import Idealize.ShloMosaic.Init

noncomputable section

namespace Cert.Proof

open Idealize.ShloMosaic Idealize.SL.Sem

theorem frame_words : Cert.frame_Kernel := fun m ρ _ => Cert.Kernel.Tiled.frame (F := Bits) m ρ

theorem frame_ideal : Cert.frame_KernelIdeal := fun m ρ _ => Cert.KernelIdeal.Tiled.frame (F := Ideal) m ρ

/-- The plain program's frame is its run with the results dropped. -/
theorem frame_plain : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments, the tiled program ends with y, h0, c0 at the cell's results over all
    nodes (Proof/TiledValue.lean) and the plain program at the same functions of its own arguments
    (Proof/RefCell.lean), which are the same arrays. -/
theorem algebraic : Cert.algebraic_KernelIdeal_ReferenceIdeal := by
  intro m ρ m' ρ' _ hagree
  refine ⟨fun c => Cert.KernelIdeal.TiledValue.resY m c, fun c => Cert.KernelIdeal.TiledValue.resH m c,
    fun c => Cert.KernelIdeal.TiledValue.resC m c, Cert.KernelIdeal.TiledValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25, a26, a27, a28, a29⟩ := hagree c
  refine ⟨(h c).1.trans ?_, (h c).2.1.trans ?_, (h c).2.2.1.trans ?_, (h c).2.2.2⟩
  · rw [Cert.ReferenceIdeal.Read.val_main_v88_eq, Cert.ReferenceIdeal.RefCell.ref_y]
    simp only [a0, a3, a4, a5, a6, a7, a8, a9, a10, a11, a12, a13, a14, a15, a16, a17, a18, a19, a20, a21, a22, a23, a24, a25, a26, a27, a28, a29]
    rfl
  · rw [Cert.ReferenceIdeal.Read.val_main_v83_eq, Cert.ReferenceIdeal.RefCell.ref_h0]
    simp only [a0, a3, a4, a5, a6, a7, a8, a9, a10, a11, a12, a13, a14, a15, a16, a17, a18, a19, a20, a21, a22, a23, a24, a25, a26, a27]
    rfl
  · rw [Cert.ReferenceIdeal.Read.val_main_v59_eq, Cert.ReferenceIdeal.RefCell.ref_c0]
    simp only [a0, a3, a4, a5, a6, a7, a8, a9, a10, a11, a12, a13, a14, a15, a16, a17, a18, a19, a20, a21]
    rfl

theorem claim : Cert.Claim := ⟨Cert.Kernel.Gen.facts, Cert.KernelIdeal.Gen.facts, Cert.ReferenceIdeal.Gen.facts, Cert.Pre_finite_inputs.Gen.facts,
  frame_words, frame_ideal, frame_plain, preserves, algebraic⟩

end Cert.Proof

end
